-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v326) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S12x192x192 : Shape := ⟨3, ![12, 192, 192]⟩
abbrev S32x36 : Shape := ⟨2, ![32, 36]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S12x192x192 : S_.BroadcastsInDim S12x192x192 (![] : Fin 0 → Fin S12x192x192.rank)
  reducesTo_S12x192x192_S_d0_1_2 : S12x192x192.ReducesTo [0, 1, 2] S_
  bcast_S_S32x36 : S_.BroadcastsInDim S32x36 (![] : Fin 0 → Fin S32x36.rank)
  reducesTo_S32x36_S_d0_1 : S32x36.ReducesTo [0, 1] S_

variable [Facts]

def fn_part1 {F : FTy → Type} [FloatOps F] (main_arg4 : FVec F S32x36 .f32) (main_v13 : IVec S_ 1) (main_v16 : IVec S12x192x192 1) : IVec S_ 1 :=
  let main_c_5 : IVec S_ 1 := constantI S_ 1 1#1
  let main_v17 : IVec S_ 1 := (fun x v => Host.reduce IntOp.andi x v reducesTo_S12x192x192_S_d0_1_2 h_S_) main_v16 main_c_5
  let main_v18 : IVec S_ 1 := andi main_v13 main_v17
  let main_v19 : FVec F S32x36 .f32 := Host.absf main_arg4
  let main_cst_6 : FVec F S_ .f32 := constant S_ .f32 0x7F800000#32
  let main_v20 : FVec F S32x36 .f32 := broadcastInDim S32x36 ![] bcast_S_S32x36 main_cst_6
  let main_v21 : IVec S32x36 1 := cmpf .olt main_v19 main_v20
  let main_c_7 : IVec S_ 1 := constantI S_ 1 1#1
  let main_v22 : IVec S_ 1 := (fun x v => Host.reduce IntOp.andi x v reducesTo_S32x36_S_d0_1 h_S_) main_v21 main_c_7
  let main_v23 : IVec S_ 1 := andi main_v18 main_v22
  main_v23

def fn {F : FTy → Type} [FloatOps F] (main_arg0 : FVec F S2000000x3 .f32) (main_arg1 : FVec F S12x192x192 .f32) (main_arg2 : FVec F S12x192x192 .f32) (main_arg3 : FVec F S12x192x192 .f32) (main_arg4 : FVec F S32x36 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S12x192x192 .f32 := Host.absf main_arg1
  let main_cst_0 : FVec F S_ .f32 := constant S_ .f32 0x7F800000#32
  let main_v5 : FVec F S12x192x192 .f32 := broadcastInDim S12x192x192 ![] bcast_S_S12x192x192 main_cst_0
  let main_v6 : IVec S12x192x192 1 := cmpf .olt main_v4 main_v5
  let main_c_1 : IVec S_ 1 := constantI S_ 1 1#1
  let main_v7 : IVec S_ 1 := (fun x v => Host.reduce IntOp.andi x v reducesTo_S12x192x192_S_d0_1_2 h_S_) main_v6 main_c_1
  let main_v8 : IVec S_ 1 := andi main_v3 main_v7
  let main_v9 : FVec F S12x192x192 .f32 := Host.absf main_arg2
  let main_cst_2 : FVec F S_ .f32 := constant S_ .f32 0x7F800000#32
  let main_v10 : FVec F S12x192x192 .f32 := broadcastInDim S12x192x192 ![] bcast_S_S12x192x192 main_cst_2
  let main_v11 : IVec S12x192x192 1 := cmpf .olt main_v9 main_v10
  let main_c_3 : IVec S_ 1 := constantI S_ 1 1#1
  let main_v12 : IVec S_ 1 := (fun x v => Host.reduce IntOp.andi x v reducesTo_S12x192x192_S_d0_1_2 h_S_) main_v11 main_c_3
  let main_v13 : IVec S_ 1 := andi main_v8 main_v12
  let main_v14 : FVec F S12x192x192 .f32 := Host.absf main_arg3
  let main_cst_4 : FVec F S_ .f32 := constant S_ .f32 0x7F800000#32
  let main_v15 : FVec F S12x192x192 .f32 := broadcastInDim S12x192x192 ![] bcast_S_S12x192x192 main_cst_4
  let main_v16 : IVec S12x192x192 1 := cmpf .olt main_v14 main_v15
  fn_part1 (F := F) main_arg4 main_v13 main_v16
-- ==== Kernel.lean ====
abbrev S2000000x3 : Shape := ⟨2, ![2000000, 3]⟩
abbrev S12x192x192 : Shape := ⟨3, ![12, 192, 192]⟩
abbrev S32x36 : Shape := ⟨2, ![32, 36]⟩
abbrev S36x32 : Shape := ⟨2, ![36, 32]⟩
abbrev S2000000x32 : Shape := ⟨2, ![2000000, 32]⟩
abbrev S2000x3 : Shape := ⟨2, ![2000, 3]⟩
abbrev S2000x32 : Shape := ⟨2, ![2000, 32]⟩
abbrev S2000x1 : Shape := ⟨2, ![2000, 1]⟩
abbrev S2000x192 : Shape := ⟨2, ![2000, 192]⟩
abbrev S1x192x192 : Shape := ⟨3, ![1, 192, 192]⟩
abbrev S192x192 : Shape := ⟨2, ![192, 192]⟩
abbrev S2000 : Shape := ⟨1, ![2000]⟩
abbrev S2000x12 : Shape := ⟨2, ![2000, 12]⟩
abbrev S2000x36 : Shape := ⟨2, ![2000, 36]⟩

abbrev nBuf : Space → Nat
  | .hbm => 11
  | .vmem => 8
  | .smem => 0
  | _ => 0

abbrev bufTy : (tb : Table) → Fin (tcTables nBuf tb) → BufTy
  | .hbm, ⟨0, _⟩ => ⟨S2000000x3, .f32⟩
  | .hbm, ⟨1, _⟩ => ⟨S12x192x192, .f32⟩
  | .hbm, ⟨2, _⟩ => ⟨S12x192x192, .f32⟩
  | .hbm, ⟨3, _⟩ => ⟨S12x192x192, .f32⟩
  | .hbm, ⟨4, _⟩ => ⟨S32x36, .f32⟩
  | .hbm, ⟨5, _⟩ => ⟨S36x32, .f32⟩
  | .hbm, ⟨6, _⟩ => ⟨S36x32, .bf16⟩
  | .hbm, ⟨7, _⟩ => ⟨S12x192x192, .bf16⟩
  | .hbm, ⟨8, _⟩ => ⟨S12x192x192, .bf16⟩
  | .hbm, ⟨9, _⟩ => ⟨S12x192x192, .bf16⟩
  | .hbm, ⟨10, _⟩ => ⟨S2000000x32, .f32⟩
  | .local _ .vmem, ⟨0, _⟩ => ⟨S2000x3, .f32⟩
  | .local _ .vmem, ⟨1, _⟩ => ⟨S2000x3, .f32⟩
  | .local _ .vmem, ⟨2, _⟩ => ⟨S12x192x192, .bf16⟩
  | .local _ .vmem, ⟨3, _⟩ => ⟨S12x192x192, .bf16⟩
  | .local _ .vmem, ⟨4, _⟩ => ⟨S12x192x192, .bf16⟩
  | .local _ .vmem, ⟨5, _⟩ => ⟨S36x32, .bf16⟩
  | .local _ .vmem, ⟨6, _⟩ => ⟨S2000x32, .f32⟩
  | .local _ .vmem, ⟨7, _⟩ => ⟨S2000x32, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x192x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x192x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S36x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S32x36_S36x32_1_0 : S32x36.Transposes [1, 0] S36x32
  bitsLt_bf16_f32 : FTy.bits .bf16 < FTy.bits .f32
  inb_S2000x3_S2000x1_0_0 : ∀ a, (![0, 0] : Fin 2 → Nat) a + S2000x1.size a ≤ S2000x3.size a
  h_S2000x1 : 0 < S2000x1.numel
  inb_S2000x3_S2000x1_0_1 : ∀ a, (![0, 1] : Fin 2 → Nat) a + S2000x1.size a ≤ S2000x3.size a
  inb_S2000x3_S2000x1_0_2 : ∀ a, (![0, 2] : Fin 2 → Nat) a + S2000x1.size a ≤ S2000x3.size a
  iota_S2000x192_d1_w32 : S2000x192.Iotas .tc 32 [1]
  broadcasts_S2000x1_S2000x192 : S2000x1.Broadcasts S2000x192
  shapeCasts_S2000x1_S2000x1 : S2000x1.ShapeCasts S2000x1
  inb_S12x192x192_S1x192x192_0_0_0 : ∀ a, (![0, 0, 0] : Fin 3 → Nat) a + S1x192x192.size a ≤ S12x192x192.size a
  h_S1x192x192 : 0 < S1x192x192.numel
  shapeCasts_S1x192x192_S192x192 : S1x192x192.ShapeCasts S192x192
  reduces_S2000x192_S2000 : S2000x192.Reduces [1] S2000
  shapeCasts_S2000_S2000x1 : S2000.ShapeCasts S2000x1
  inb_S12x192x192_S1x192x192_1_0_0 : ∀ a, (![1, 0, 0] : Fin 3 → Nat) a + S1x192x192.size a ≤ S12x192x192.size a
  inb_S12x192x192_S1x192x192_2_0_0 : ∀ a, (![2, 0, 0] : Fin 3 → Nat) a + S1x192x192.size a ≤ S12x192x192.size a
  inb_S12x192x192_S1x192x192_3_0_0 : ∀ a, (![3, 0, 0] : Fin 3 → Nat) a + S1x192x192.size a ≤ S12x192x192.size a
  inb_S12x192x192_S1x192x192_4_0_0 : ∀ a, (![4, 0, 0] : Fin 3 → Nat) a + S1x192x192.size a ≤ S12x192x192.size a
  inb_S12x192x192_S1x192x192_5_0_0 : ∀ a, (![5, 0, 0] : Fin 3 → Nat) a + S1x192x192.size a ≤ S12x192x192.size a
  inb_S12x192x192_S1x192x192_6_0_0 : ∀ a, (![6, 0, 0] : Fin 3 → Nat) a + S1x192x192.size a ≤ S12x192x192.size a
  inb_S12x192x192_S1x192x192_7_0_0 : ∀ a, (![7, 0, 0] : Fin 3 → Nat) a + S1x192x192.size a ≤ S12x192x192.size a
  inb_S12x192x192_S1x192x192_8_0_0 : ∀ a, (![8, 0, 0] : Fin 3 → Nat) a + S1x192x192.size a ≤ S12x192x192.size a
  inb_S12x192x192_S1x192x192_9_0_0 : ∀ a, (![9, 0, 0] : Fin 3 → Nat) a + S1x192x192.size a ≤ S12x192x192.size a
  inb_S12x192x192_S1x192x192_10_0_0 : ∀ a, (![10, 0, 0] : Fin 3 → Nat) a + S1x192x192.size a ≤ S12x192x192.size a
  inb_S12x192x192_S1x192x192_11_0_0 : ∀ a, (![11, 0, 0] : Fin 3 → Nat) a + S1x192x192.size a ≤ S12x192x192.size a
  concatenates_S2000x1_S2000x1_S2000x1_S2000x1_S2000x1_S2000x1_S2000x1_S2000x1_S2000x1_S2000x1_S2000x1_S2000x1_S2000x12_d1 : Shape.Concatenates [S2000x1, S2000x1, S2000x1, S2000x1, S2000x1, S2000x1, S2000x1, S2000x1, S2000x1, S2000x1, S2000x1, S2000x1] S2000x12 1
  concatenates_S2000x12_S2000x12_S2000x12_S2000x36_d1 : Shape.Concatenates [S2000x12, S2000x12, S2000x12] S2000x36 1
  inb_S36x32_S36x32_0_0 : ∀ a, (![0, 0] : Fin 2 → Nat) a + S36x32.size a ≤ S36x32.size a
  h_S36x32 : 0 < S36x32.numel
  shapeCasts_S36x32_S36x32 : S36x32.ShapeCasts S36x32
  inb_S2000x32_S2000x32_0_0 : ∀ a, (![0, 0] : Fin 2 → Nat) a + S2000x32.size a ≤ S2000x32.size a
  h_S2000x32 : 0 < S2000x32.numel
  dot_S2000x192_S192x192_S2000x192_1_0_0_1_n_n_wf : DotDims.WF S2000x192 S192x192 S2000x192 [1] [0] [0] [1] [] []
  dot_S2000x36_S36x32_S2000x32_1_0_0_1_n_n_wf : DotDims.WF S2000x36 S36x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S2000000x3.size a
  hwx0_0 : ∀ i : grid0.Coords, EltTy.bits .f32 = 32 ∨ (Rect.block (s := S2000000x3) S2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x192x192.size a ≤ S12x192x192.size a
  hwx0_1 : ∀ i : grid0.Coords, EltTy.bits .bf16 = 32 ∨ (Rect.block (s := S12x192x192) S12x192x192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x192x192.size a ≤ S12x192x192.size a
  hwx0_2 : ∀ i : grid0.Coords, EltTy.bits .bf16 = 32 ∨ (Rect.block (s := S12x192x192) S12x192x192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x192x192.size a ≤ S12x192x192.size a
  hwx0_3 : ∀ i : grid0.Coords, EltTy.bits .bf16 = 32 ∨ (Rect.block (s := S12x192x192) S12x192x192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S36x32.size a ≤ S36x32.size a
  hwx0_4 : ∀ i : grid0.Coords, EltTy.bits .bf16 = 32 ∨ (Rect.block (s := S36x32) S36x32.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S2000000x32.size a
  hwx0_5 : ∀ i : grid0.Coords, EltTy.bits .f32 = 32 ∨ (Rect.block (s := S2000000x32) S2000x32.size (cc0_transform_5 i) (hinb0_5 i)).WholeWords (EltTy.packing .f32)

variable [Facts₀]

def dot_S2000x192_S192x192_S2000x192_1_0_0_1_n_n : DotDims S2000x192 S192x192 S2000x192 where
  lhsContracting := [1]
  rhsContracting := [0]
  lhsNonContracting := [0]
  rhsNonContracting := [1]
  lhsBatch := []
  rhsBatch := []
  wf := dot_S2000x192_S192x192_S2000x192_1_0_0_1_n_n_wf
def dot_S2000x36_S36x32_S2000x32_1_0_0_1_n_n : DotDims S2000x36 S36x32 S2000x32 where
  lhsContracting := [1]
  rhsContracting := [0]
  lhsNonContracting := [0]
  rhsNonContracting := [1]
  lhsBatch := []
  rhsBatch := []
  wf := dot_S2000x36_S36x32_S2000x32_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S12x192x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S12x192x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S12x192x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S36x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S12x192x192 : Shape := ⟨3, ![12, 192, 192]⟩
abbrev S32x36 : Shape := ⟨2, ![32, 36]⟩
abbrev S2000000x1 : Shape := ⟨2, ![2000000, 1]⟩
abbrev S2000000 : Shape := ⟨1, ![2000000]⟩
abbrev S_ : Shape := ⟨0, ![]⟩
abbrev S2000000x2 : Shape := ⟨2, ![2000000, 2]⟩
abbrev S12x2000000 : Shape := ⟨2, ![12, 2000000]⟩
abbrev S1x2000000 : Shape := ⟨2, ![1, 2000000]⟩
abbrev S2000000x12 : Shape := ⟨2, ![2000000, 12]⟩
abbrev S2000000x36 : Shape := ⟨2, ![2000000, 36]⟩
abbrev S36x32 : Shape := ⟨2, ![36, 32]⟩
abbrev S2000000x32 : Shape := ⟨2, ![2000000, 32]⟩

abbrev nBuf : Space → Nat
  | .hbm => 449
  | .vmem => 0
  | .smem => 0
  | _ => 0

abbrev hbmTy0_0 (i : Nat) : BufTy := match i % 128 with
  | 0 => ⟨S2000000x3, .f32⟩
  | 1 => ⟨S12x192x192, .f32⟩
  | 2 => ⟨S12x192x192, .f32⟩
  | 3 => ⟨S12x192x192, .f32⟩
  | 4 => ⟨S32x36, .f32⟩
  | 5 => ⟨S2000000x1, .f32⟩
  | 6 => ⟨S2000000, .f32⟩
  | 7 => ⟨S2000000x1, .f32⟩
  | 8 => ⟨S2000000, .f32⟩
  | 9 => ⟨S2000000x1, .f32⟩
  | 10 => ⟨S2000000, .f32⟩
  | 11 => ⟨S_, .f32⟩
  | 12 => ⟨S2000000, .f32⟩
  | 13 => ⟨S2000000, .f32⟩
  | 14 => ⟨S_, .f32⟩
  | 15 => ⟨S_, .i32⟩
  | 16 => ⟨S_, .f32⟩
  | 17 => ⟨S2000000, .f32⟩
  | 18 => ⟨S2000000, .f32⟩
  | 19 => ⟨S_, .f32⟩
  | 20 => ⟨S2000000, .f32⟩
  | 21 => ⟨S2000000, .f32⟩
  | 22 => ⟨S_, .f32⟩
  | 23 => ⟨S2000000, .f32⟩
  | 24 => ⟨S2000000, .f32⟩
  | 25 => ⟨S_, .f32⟩
  | 26 => ⟨S_, .i32⟩
  | 27 => ⟨S_, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S2000000, .f32⟩
  | 34 => ⟨S2000000, .i32⟩
  | 35 => ⟨S2000000, .f32⟩
  | 36 => ⟨S2000000, .i32⟩
  | 37 => ⟨S_, .i32⟩
  | 38 => ⟨S2000000, .i32⟩
  | 39 => ⟨S2000000, .i32⟩
  | 40 => ⟨S_, .i32⟩
  | 41 => ⟨S2000000, .i32⟩
  | 42 => ⟨S2000000, .i32⟩
  | 43 => ⟨S_, .i32⟩
  | 44 => ⟨S2000000, .i32⟩
  | 45 => ⟨S2000000, .i32⟩
  | 46 => ⟨S_, .i32⟩
  | 47 => ⟨S2000000, .i32⟩
  | 48 => ⟨S2000000, .i32⟩
  | 49 => ⟨S2000000, .f32⟩
  | 50 => ⟨S2000000, .f32⟩
  | 51 => ⟨S2000000, .f32⟩
  | 52 => ⟨S2000000, .f32⟩
  | 53 => ⟨S_, .i32⟩
  | 54 => ⟨S2000000, .i32⟩
  | 55 => ⟨S2000000, .i1⟩
  | 56 => ⟨S_, .i32⟩
  | 57 => ⟨S2000000, .i32⟩
  | 58 => ⟨S2000000, .i32⟩
  | 59 => ⟨S2000000, .i32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i32⟩
  | 66 => ⟨S2000000, .i32⟩
  | 67 => ⟨S2000000x1, .i32⟩
  | 68 => ⟨S2000000x1, .i32⟩
  | 69 => ⟨S2000000x2, .i32⟩
  | 70 => ⟨S12x2000000, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x1, .i32⟩
  | 87 => ⟨S2000000x2, .i32⟩
  | 88 => ⟨S12x2000000, .f32⟩
  | 89 => ⟨S_, .i32⟩
  | 90 => ⟨S2000000, .i32⟩
  | 91 => ⟨S2000000, .i1⟩
  | 92 => ⟨S_, .i32⟩
  | 93 => ⟨S2000000, .i32⟩
  | 94 => ⟨S2000000, .i32⟩
  | 95 => ⟨S2000000, .i32⟩
  | 96 => ⟨S_, .i32⟩
  | 97 => ⟨S2000000, .i32⟩
  | 98 => ⟨S2000000, .i1⟩
  | 99 => ⟨S_, .i32⟩
  | 100 => ⟨S2000000, .i32⟩
  | 101 => ⟨S2000000, .i32⟩
  | 102 => ⟨S2000000, .i32⟩
  | 103 => ⟨S2000000x1, .i32⟩
  | 104 => ⟨S2000000x1, .i32⟩
  | 105 => ⟨S2000000x2, .i32⟩
  | 106 => ⟨S12x2000000, .f32⟩
  | 107 => ⟨S_, .i32⟩
  | 108 => ⟨S2000000, .i32⟩
  | 109 => ⟨S2000000, .i1⟩
  | 110 => ⟨S_, .i32⟩
  | 111 => ⟨S2000000, .i32⟩
  | 112 => ⟨S2000000, .i32⟩
  | 113 => ⟨S2000000, .i32⟩
  | 114 => ⟨S_, .i32⟩
  | 115 => ⟨S2000000, .i32⟩
  | 116 => ⟨S2000000, .i1⟩
  | 117 => ⟨S_, .i32⟩
  | 118 => ⟨S2000000, .i32⟩
  | 119 => ⟨S2000000, .i32⟩
  | 120 => ⟨S2000000, .i32⟩
  | 121 => ⟨S2000000x1, .i32⟩
  | 122 => ⟨S2000000x1, .i32⟩
  | 123 => ⟨S2000000x2, .i32⟩
  | 124 => ⟨S12x2000000, .f32⟩
  | 125 => ⟨S_, .f32⟩
  | 126 => ⟨S2000000, .f32⟩
  | 127 => ⟨S2000000, .f32⟩
  | _ => ⟨S2000000x3, .f32⟩

abbrev hbmTy0_1 (i : Nat) : BufTy := match i % 128 with
  | 0 => ⟨S1x2000000, .f32⟩
  | 1 => ⟨S12x2000000, .f32⟩
  | 2 => ⟨S12x2000000, .f32⟩
  | 3 => ⟨S1x2000000, .f32⟩
  | 4 => ⟨S12x2000000, .f32⟩
  | 5 => ⟨S12x2000000, .f32⟩
  | 6 => ⟨S12x2000000, .f32⟩
  | 7 => ⟨S_, .f32⟩
  | 8 => ⟨S2000000, .f32⟩
  | 9 => ⟨S2000000, .f32⟩
  | 10 => ⟨S1x2000000, .f32⟩
  | 11 => ⟨S12x2000000, .f32⟩
  | 12 => ⟨S12x2000000, .f32⟩
  | 13 => ⟨S1x2000000, .f32⟩
  | 14 => ⟨S12x2000000, .f32⟩
  | 15 => ⟨S12x2000000, .f32⟩
  | 16 => ⟨S12x2000000, .f32⟩
  | 17 => ⟨S_, .f32⟩
  | 18 => ⟨S2000000, .f32⟩
  | 19 => ⟨S2000000, .f32⟩
  | 20 => ⟨S1x2000000, .f32⟩
  | 21 => ⟨S12x2000000, .f32⟩
  | 22 => ⟨S12x2000000, .f32⟩
  | 23 => ⟨S1x2000000, .f32⟩
  | 24 => ⟨S12x2000000, .f32⟩
  | 25 => ⟨S12x2000000, .f32⟩
  | 26 => ⟨S12x2000000, .f32⟩
  | 27 => ⟨S2000000x12, .f32⟩
  | 28 => ⟨S_, .f32⟩
  | 29 => ⟨S2000000, .f32⟩
  | 30 => ⟨S2000000, .f32⟩
  | 31 => ⟨S_, .f32⟩
  | 32 => ⟨S_, .i32⟩
  | 33 => ⟨S_, .f32⟩
  | 34 => ⟨S2000000, .f32⟩
  | 35 => ⟨S2000000, .f32⟩
  | 36 => ⟨S_, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S_, .f32⟩
  | 43 => ⟨S_, .i32⟩
  | 44 => ⟨S_, .f32⟩
  | 45 => ⟨S2000000, .f32⟩
  | 46 => ⟨S2000000, .f32⟩
  | 47 => ⟨S_, .f32⟩
  | 48 => ⟨S2000000, .f32⟩
  | 49 => ⟨S2000000, .f32⟩
  | 50 => ⟨S2000000, .f32⟩
  | 51 => ⟨S2000000, .i32⟩
  | 52 => ⟨S2000000, .f32⟩
  | 53 => ⟨S2000000, .i32⟩
  | 54 => ⟨S_, .i32⟩
  | 55 => ⟨S2000000, .i32⟩
  | 56 => ⟨S2000000, .i32⟩
  | 57 => ⟨S_, .i32⟩
  | 58 => ⟨S2000000, .i32⟩
  | 59 => ⟨S2000000, .i32⟩
  | 60 => ⟨S_, .i32⟩
  | 61 => ⟨S2000000, .i32⟩
  | 62 => ⟨S2000000, .i32⟩
  | 63 => ⟨S_, .i32⟩
  | 64 => ⟨S2000000, .i32⟩
  | 65 => ⟨S2000000, .i32⟩
  | 66 => ⟨S2000000, .f32⟩
  | 67 => ⟨S2000000, .f32⟩
  | 68 => ⟨S2000000, .f32⟩
  | 69 => ⟨S2000000, .f32⟩
  | 70 => ⟨S_, .i32⟩
  | 71 => ⟨S2000000, .i32⟩
  | 72 => ⟨S2000000, .i1⟩
  | 73 => ⟨S_, .i32⟩
  | 74 => ⟨S2000000, .i32⟩
  | 75 => ⟨S2000000, .i32⟩
  | 76 => ⟨S2000000, .i32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S2000000x1, .i32⟩
  | 85 => ⟨S2000000x1, .i32⟩
  | 86 => ⟨S2000000x2, .i32⟩
  | 87 => ⟨S12x2000000, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S_, .i32⟩
  | 96 => ⟨S2000000, .i32⟩
  | 97 => ⟨S2000000, .i1⟩
  | 98 => ⟨S_, .i32⟩
  | 99 => ⟨S2000000, .i32⟩
  | 100 => ⟨S2000000, .i32⟩
  | 101 => ⟨S2000000, .i32⟩
  | 102 => ⟨S2000000x1, .i32⟩
  | 103 => ⟨S2000000x1, .i32⟩
  | 104 => ⟨S2000000x2, .i32⟩
  | 105 => ⟨S12x2000000, .f32⟩
  | 106 => ⟨S_, .i32⟩
  | 107 => ⟨S2000000, .i32⟩
  | 108 => ⟨S2000000, .i1⟩
  | 109 => ⟨S_, .i32⟩
  | 110 => ⟨S2000000, .i32⟩
  | 111 => ⟨S2000000, .i32⟩
  | 112 => ⟨S2000000, .i32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S2000000x1, .i32⟩
  | 121 => ⟨S2000000x1, .i32⟩
  | 122 => ⟨S2000000x2, .i32⟩
  | 123 => ⟨S12x2000000, .f32⟩
  | 124 => ⟨S_, .i32⟩
  | 125 => ⟨S2000000, .i32⟩
  | 126 => ⟨S2000000, .i1⟩
  | 127 => ⟨S_, .i32⟩
  | _ => ⟨S2000000x3, .f32⟩

abbrev hbmTy0_2 (i : Nat) : BufTy := match i % 128 with
  | 0 => ⟨S2000000, .i32⟩
  | 1 => ⟨S2000000, .i32⟩
  | 2 => ⟨S2000000, .i32⟩
  | 3 => ⟨S_, .i32⟩
  | 4 => ⟨S2000000, .i32⟩
  | 5 => ⟨S2000000, .i1⟩
  | 6 => ⟨S_, .i32⟩
  | 7 => ⟨S2000000, .i32⟩
  | 8 => ⟨S2000000, .i32⟩
  | 9 => ⟨S2000000, .i32⟩
  | 10 => ⟨S2000000x1, .i32⟩
  | 11 => ⟨S2000000x1, .i32⟩
  | 12 => ⟨S2000000x2, .i32⟩
  | 13 => ⟨S12x2000000, .f32⟩
  | 14 => ⟨S_, .f32⟩
  | 15 => ⟨S2000000, .f32⟩
  | 16 => ⟨S2000000, .f32⟩
  | 17 => ⟨S1x2000000, .f32⟩
  | 18 => ⟨S12x2000000, .f32⟩
  | 19 => ⟨S12x2000000, .f32⟩
  | 20 => ⟨S1x2000000, .f32⟩
  | 21 => ⟨S12x2000000, .f32⟩
  | 22 => ⟨S12x2000000, .f32⟩
  | 23 => ⟨S12x2000000, .f32⟩
  | 24 => ⟨S_, .f32⟩
  | 25 => ⟨S2000000, .f32⟩
  | 26 => ⟨S2000000, .f32⟩
  | 27 => ⟨S1x2000000, .f32⟩
  | 28 => ⟨S12x2000000, .f32⟩
  | 29 => ⟨S12x2000000, .f32⟩
  | 30 => ⟨S1x2000000, .f32⟩
  | 31 => ⟨S12x2000000, .f32⟩
  | 32 => ⟨S12x2000000, .f32⟩
  | 33 => ⟨S12x2000000, .f32⟩
  | 34 => ⟨S_, .f32⟩
  | 35 => ⟨S2000000, .f32⟩
  | 36 => ⟨S2000000, .f32⟩
  | 37 => ⟨S1x2000000, .f32⟩
  | 38 => ⟨S12x2000000, .f32⟩
  | 39 => ⟨S12x2000000, .f32⟩
  | 40 => ⟨S1x2000000, .f32⟩
  | 41 => ⟨S12x2000000, .f32⟩
  | 42 => ⟨S12x2000000, .f32⟩
  | 43 => ⟨S12x2000000, .f32⟩
  | 44 => ⟨S2000000x12, .f32⟩
  | 45 => ⟨S_, .f32⟩
  | 46 => ⟨S2000000, .f32⟩
  | 47 => ⟨S2000000, .f32⟩
  | 48 => ⟨S_, .f32⟩
  | 49 => ⟨S_, .i32⟩
  | 50 => ⟨S_, .f32⟩
  | 51 => ⟨S2000000, .f32⟩
  | 52 => ⟨S2000000, .f32⟩
  | 53 => ⟨S_, .f32⟩
  | 54 => ⟨S2000000, .f32⟩
  | 55 => ⟨S2000000, .f32⟩
  | 56 => ⟨S_, .f32⟩
  | 57 => ⟨S2000000, .f32⟩
  | 58 => ⟨S2000000, .f32⟩
  | 59 => ⟨S_, .f32⟩
  | 60 => ⟨S_, .i32⟩
  | 61 => ⟨S_, .f32⟩
  | 62 => ⟨S2000000, .f32⟩
  | 63 => ⟨S2000000, .f32⟩
  | 64 => ⟨S_, .f32⟩
  | 65 => ⟨S2000000, .f32⟩
  | 66 => ⟨S2000000, .f32⟩
  | 67 => ⟨S2000000, .f32⟩
  | 68 => ⟨S2000000, .i32⟩
  | 69 => ⟨S2000000, .f32⟩
  | 70 => ⟨S2000000, .i32⟩
  | 71 => ⟨S_, .i32⟩
  | 72 => ⟨S2000000, .i32⟩
  | 73 => ⟨S2000000, .i32⟩
  | 74 => ⟨S_, .i32⟩
  | 75 => ⟨S2000000, .i32⟩
  | 76 => ⟨S2000000, .i32⟩
  | 77 => ⟨S_, .i32⟩
  | 78 => ⟨S2000000, .i32⟩
  | 79 => ⟨S2000000, .i32⟩
  | 80 => ⟨S_, .i32⟩
  | 81 => ⟨S2000000, .i32⟩
  | 82 => ⟨S2000000, .i32⟩
  | 83 => ⟨S2000000, .f32⟩
  | 84 => ⟨S2000000, .f32⟩
  | 85 => ⟨S2000000, .f32⟩
  | 86 => ⟨S2000000, .f32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S_, .i32⟩
  | 95 => ⟨S2000000, .i32⟩
  | 96 => ⟨S2000000, .i1⟩
  | 97 => ⟨S_, .i32⟩
  | 98 => ⟨S2000000, .i32⟩
  | 99 => ⟨S2000000, .i32⟩
  | 100 => ⟨S2000000, .i32⟩
  | 101 => ⟨S2000000x1, .i32⟩
  | 102 => ⟨S2000000x1, .i32⟩
  | 103 => ⟨S2000000x2, .i32⟩
  | 104 => ⟨S12x2000000, .f32⟩
  | 105 => ⟨S_, .i32⟩
  | 106 => ⟨S2000000, .i32⟩
  | 107 => ⟨S2000000, .i1⟩
  | 108 => ⟨S_, .i32⟩
  | 109 => ⟨S2000000, .i32⟩
  | 110 => ⟨S2000000, .i32⟩
  | 111 => ⟨S2000000, .i32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000x1, .i32⟩
  | 121 => ⟨S2000000x2, .i32⟩
  | 122 => ⟨S12x2000000, .f32⟩
  | 123 => ⟨S_, .i32⟩
  | 124 => ⟨S2000000, .i32⟩
  | 125 => ⟨S2000000, .i1⟩
  | 126 => ⟨S_, .i32⟩
  | 127 => ⟨S2000000, .i32⟩
  | _ => ⟨S2000000x3, .f32⟩

abbrev hbmTy0_3 (i : Nat) : BufTy := match i % 128 with
  | 0 => ⟨S2000000, .i32⟩
  | 1 => ⟨S2000000, .i32⟩
  | 2 => ⟨S_, .i32⟩
  | 3 => ⟨S2000000, .i32⟩
  | 4 => ⟨S2000000, .i1⟩
  | 5 => ⟨S_, .i32⟩
  | 6 => ⟨S2000000, .i32⟩
  | 7 => ⟨S2000000, .i32⟩
  | 8 => ⟨S2000000, .i32⟩
  | 9 => ⟨S2000000x1, .i32⟩
  | 10 => ⟨S2000000x1, .i32⟩
  | 11 => ⟨S2000000x2, .i32⟩
  | 12 => ⟨S12x2000000, .f32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i32⟩
  | 26 => ⟨S2000000, .i32⟩
  | 27 => ⟨S2000000x1, .i32⟩
  | 28 => ⟨S2000000x1, .i32⟩
  | 29 => ⟨S2000000x2, .i32⟩
  | 30 => ⟨S12x2000000, .f32⟩
  | 31 => ⟨S_, .f32⟩
  | 32 => ⟨S2000000, .f32⟩
  | 33 => ⟨S2000000, .f32⟩
  | 34 => ⟨S1x2000000, .f32⟩
  | 35 => ⟨S12x2000000, .f32⟩
  | 36 => ⟨S12x2000000, .f32⟩
  | 37 => ⟨S1x2000000, .f32⟩
  | 38 => ⟨S12x2000000, .f32⟩
  | 39 => ⟨S12x2000000, .f32⟩
  | 40 => ⟨S12x2000000, .f32⟩
  | 41 => ⟨S_, .f32⟩
  | 42 => ⟨S2000000, .f32⟩
  | 43 => ⟨S2000000, .f32⟩
  | 44 => ⟨S1x2000000, .f32⟩
  | 45 => ⟨S12x2000000, .f32⟩
  | 46 => ⟨S12x2000000, .f32⟩
  | 47 => ⟨S1x2000000, .f32⟩
  | 48 => ⟨S12x2000000, .f32⟩
  | 49 => ⟨S12x2000000, .f32⟩
  | 50 => ⟨S12x2000000, .f32⟩
  | 51 => ⟨S_, .f32⟩
  | 52 => ⟨S2000000, .f32⟩
  | 53 => ⟨S2000000, .f32⟩
  | 54 => ⟨S1x2000000, .f32⟩
  | 55 => ⟨S12x2000000, .f32⟩
  | 56 => ⟨S12x2000000, .f32⟩
  | 57 => ⟨S1x2000000, .f32⟩
  | 58 => ⟨S12x2000000, .f32⟩
  | 59 => ⟨S12x2000000, .f32⟩
  | 60 => ⟨S12x2000000, .f32⟩
  | 61 => ⟨S2000000x12, .f32⟩
  | 62 => ⟨S2000000x36, .f32⟩
  | 63 => ⟨S36x32, .f32⟩
  | 64 => ⟨S2000000x32, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_c_5 : Ref sig .tc := ⟨.hbm, 40, rfl⟩
abbrev main_v18 : Ref sig .tc := ⟨.hbm, 41, rfl⟩
abbrev main_v19 : Ref sig .tc := ⟨.hbm, 42, rfl⟩
abbrev main_c_6 : Ref sig .tc := ⟨.hbm, 43, rfl⟩
abbrev main_v20 : Ref sig .tc := ⟨.hbm, 44, rfl⟩
abbrev main_v21 : Ref sig .tc := ⟨.hbm, 45, rfl⟩
abbrev main_c_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_c_9 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_10 : Ref sig .tc := ⟨.hbm, 60, rfl⟩
abbrev main_v33 : Ref sig .tc := ⟨.hbm, 61, rfl⟩
abbrev main_v34 : Ref sig .tc := ⟨.hbm, 62, rfl⟩
abbrev main_c_11 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_12 : Ref sig .tc := ⟨.hbm, 71, rfl⟩
abbrev main_v42 : Ref sig .tc := ⟨.hbm, 72, rfl⟩
abbrev main_v43 : Ref sig .tc := ⟨.hbm, 73, rfl⟩
abbrev main_c_13 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_14 : Ref sig .tc := ⟨.hbm, 78, rfl⟩
abbrev main_v47 : Ref sig .tc := ⟨.hbm, 79, rfl⟩
abbrev main_v48 : Ref sig .tc := ⟨.hbm, 80, rfl⟩
abbrev main_c_15 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_16 : Ref sig .tc := ⟨.hbm, 89, rfl⟩
abbrev main_v56 : Ref sig .tc := ⟨.hbm, 90, rfl⟩
abbrev main_v57 : Ref sig .tc := ⟨.hbm, 91, rfl⟩
abbrev main_c_17 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_18 : Ref sig .tc := ⟨.hbm, 96, rfl⟩
abbrev main_v61 : Ref sig .tc := ⟨.hbm, 97, rfl⟩
abbrev main_v62 : Ref sig .tc := ⟨.hbm, 98, rfl⟩
abbrev main_c_19 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_20 : Ref sig .tc := ⟨.hbm, 107, rfl⟩
abbrev main_v70 : Ref sig .tc := ⟨.hbm, 108, rfl⟩
abbrev main_v71 : Ref sig .tc := ⟨.hbm, 109, rfl⟩
abbrev main_c_21 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_22 : Ref sig .tc := ⟨.hbm, 114, rfl⟩
abbrev main_v75 : Ref sig .tc := ⟨.hbm, 115, rfl⟩
abbrev main_v76 : Ref sig .tc := ⟨.hbm, 116, rfl⟩
abbrev main_c_23 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_24 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_25 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_26 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_27 : Ref sig .tc := ⟨.hbm, 156, rfl⟩
abbrev main_v112 : Ref sig .tc := ⟨.hbm, 157, rfl⟩
abbrev main_v113 : Ref sig .tc := ⟨.hbm, 158, rfl⟩
abbrev main_cst_28 : Ref sig .tc := ⟨.hbm, 159, rfl⟩
abbrev main_c_29 : Ref sig .tc := ⟨.hbm, 160, rfl⟩
abbrev main_call2_v0 : Ref sig .tc := ⟨.hbm, 161, rfl⟩
abbrev main_call2_v1 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_v114 : Ref sig .tc := ⟨.hbm, 166, rfl⟩
abbrev main_cst_30 : Ref sig .tc := ⟨.hbm, 167, rfl⟩
abbrev main_v115 : Ref sig .tc := ⟨.hbm, 168, rfl⟩
abbrev main_v116 : Ref sig .tc := ⟨.hbm, 169, rfl⟩
abbrev main_cst_31 : Ref sig .tc := ⟨.hbm, 170, rfl⟩
abbrev main_c_32 : Ref sig .tc := ⟨.hbm, 171, rfl⟩
abbrev main_call3_v0 : Ref sig .tc := ⟨.hbm, 172, rfl⟩
abbrev main_call3_v1 : Ref sig .tc := ⟨.hbm, 173, rfl⟩
abbrev main_call3_v2 : Ref sig .tc := ⟨.hbm, 174, rfl⟩
abbrev main_call3_v3 : Ref sig .tc := ⟨.hbm, 175, rfl⟩
abbrev main_call3_v4 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_c_33 : Ref sig .tc := ⟨.hbm, 182, rfl⟩
abbrev main_v122 : Ref sig .tc := ⟨.hbm, 183, rfl⟩
abbrev main_v123 : Ref sig .tc := ⟨.hbm, 184, rfl⟩
abbrev main_c_34 : Ref sig .tc := ⟨.hbm, 185, rfl⟩
abbrev main_v124 : Ref sig .tc := ⟨.hbm, 186, rfl⟩
abbrev main_v125 : Ref sig .tc := ⟨.hbm, 187, rfl⟩
abbrev main_c_35 : Ref sig .tc := ⟨.hbm, 188, rfl⟩
abbrev main_v126 : Ref sig .tc := ⟨.hbm, 189, rfl⟩
abbrev main_v127 : Ref sig .tc := ⟨.hbm, 190, rfl⟩
abbrev main_c_36 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_c_37 : Ref sig .tc := ⟨.hbm, 198, rfl⟩
abbrev main_v134 : Ref sig .tc := ⟨.hbm, 199, rfl⟩
abbrev main_v135 : Ref sig .tc := ⟨.hbm, 200, rfl⟩
abbrev main_c_38 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_c_39 : Ref sig .tc := ⟨.hbm, 205, rfl⟩
abbrev main_v139 : Ref sig .tc := ⟨.hbm, 206, rfl⟩
abbrev main_v140 : Ref sig .tc := ⟨.hbm, 207, rfl⟩
abbrev main_c_40 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_c_41 : Ref sig .tc := ⟨.hbm, 216, rfl⟩
abbrev main_v148 : Ref sig .tc := ⟨.hbm, 217, rfl⟩
abbrev main_v149 : Ref sig .tc := ⟨.hbm, 218, rfl⟩
abbrev main_c_42 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_c_43 : Ref sig .tc := ⟨.hbm, 223, rfl⟩
abbrev main_v153 : Ref sig .tc := ⟨.hbm, 224, rfl⟩
abbrev main_v154 : Ref sig .tc := ⟨.hbm, 225, rfl⟩
abbrev main_c_44 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_c_45 : Ref sig .tc := ⟨.hbm, 234, rfl⟩
abbrev main_v162 : Ref sig .tc := ⟨.hbm, 235, rfl⟩
abbrev main_v163 : Ref sig .tc := ⟨.hbm, 236, rfl⟩
abbrev main_c_46 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_c_47 : Ref sig .tc := ⟨.hbm, 241, rfl⟩
abbrev main_v167 : Ref sig .tc := ⟨.hbm, 242, rfl⟩
abbrev main_v168 : Ref sig .tc := ⟨.hbm, 243, rfl⟩
abbrev main_c_48 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_c_49 : Ref sig .tc := ⟨.hbm, 252, rfl⟩
abbrev main_v176 : Ref sig .tc := ⟨.hbm, 253, rfl⟩
abbrev main_v177 : Ref sig .tc := ⟨.hbm, 254, rfl⟩
abbrev main_c_50 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_c_51 : Ref sig .tc := ⟨.hbm, 259, rfl⟩
abbrev main_v181 : Ref sig .tc := ⟨.hbm, 260, rfl⟩
abbrev main_v182 : Ref sig .tc := ⟨.hbm, 261, rfl⟩
abbrev main_c_52 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_cst_53 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_cst_54 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_cst_55 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_cst_56 : Ref sig .tc := ⟨.hbm, 301, rfl⟩
abbrev main_v218 : Ref sig .tc := ⟨.hbm, 302, rfl⟩
abbrev main_v219 : Ref sig .tc := ⟨.hbm, 303, rfl⟩
abbrev main_cst_57 : Ref sig .tc := ⟨.hbm, 304, rfl⟩
abbrev main_c_58 : Ref sig .tc := ⟨.hbm, 305, rfl⟩
abbrev main_call4_v0 : Ref sig .tc := ⟨.hbm, 306, rfl⟩
abbrev main_call4_v1 : Ref sig .tc := ⟨.hbm, 307, rfl⟩
abbrev main_call4_v2 : Ref sig .tc := ⟨.hbm, 308, rfl⟩
abbrev main_call4_v3 : Ref sig .tc := ⟨.hbm, 309, rfl⟩
abbrev main_call4_v4 : Ref sig .tc := ⟨.hbm, 310, rfl⟩
abbrev main_v220 : Ref sig .tc := ⟨.hbm, 311, rfl⟩
abbrev main_cst_59 : Ref sig .tc := ⟨.hbm, 312, rfl⟩
abbrev main_v221 : Ref sig .tc := ⟨.hbm, 313, rfl⟩
abbrev main_v222 : Ref sig .tc := ⟨.hbm, 314, rfl⟩
abbrev main_cst_60 : Ref sig .tc := ⟨.hbm, 315, rfl⟩
abbrev main_c_61 : Ref sig .tc := ⟨.hbm, 316, rfl⟩
abbrev main_call5_v0 : Ref sig .tc := ⟨.hbm, 317, rfl⟩
abbrev main_call5_v1 : Ref sig .tc := ⟨.hbm, 318, rfl⟩
abbrev main_call5_v2 : Ref sig .tc := ⟨.hbm, 319, rfl⟩
abbrev main_call5_v3 : Ref sig .tc := ⟨.hbm, 320, rfl⟩
abbrev main_call5_v4 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_c_62 : Ref sig .tc := ⟨.hbm, 327, rfl⟩
abbrev main_v228 : Ref sig .tc := ⟨.hbm, 328, rfl⟩
abbrev main_v229 : Ref sig .tc := ⟨.hbm, 329, rfl⟩
abbrev main_c_63 : Ref sig .tc := ⟨.hbm, 330, rfl⟩
abbrev main_v230 : Ref sig .tc := ⟨.hbm, 331, rfl⟩
abbrev main_v231 : Ref sig .tc := ⟨.hbm, 332, rfl⟩
abbrev main_c_64 : Ref sig .tc := ⟨.hbm, 333, rfl⟩
abbrev main_v232 : Ref sig .tc := ⟨.hbm, 334, rfl⟩
abbrev main_v233 : Ref sig .tc := ⟨.hbm, 335, rfl⟩
abbrev main_c_65 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_c_66 : Ref sig .tc := ⟨.hbm, 343, rfl⟩
abbrev main_v240 : Ref sig .tc := ⟨.hbm, 344, rfl⟩
abbrev main_v241 : Ref sig .tc := ⟨.hbm, 345, rfl⟩
abbrev main_c_67 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_c_68 : Ref sig .tc := ⟨.hbm, 350, rfl⟩
abbrev main_v245 : Ref sig .tc := ⟨.hbm, 351, rfl⟩
abbrev main_v246 : Ref sig .tc := ⟨.hbm, 352, rfl⟩
abbrev main_c_69 : Ref sig .tc := ⟨.hbm, 353, rfl⟩
abbrev main_v247 : Ref sig .tc := ⟨.hbm, 354, rfl⟩
abbrev main_v248 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_c_70 : Ref sig .tc := ⟨.hbm, 361, rfl⟩
abbrev main_v254 : Ref sig .tc := ⟨.hbm, 362, rfl⟩
abbrev main_v255 : Ref sig .tc := ⟨.hbm, 363, rfl⟩
abbrev main_c_71 : Ref sig .tc := ⟨.hbm, 364, rfl⟩
abbrev main_v256 : Ref sig .tc := ⟨.hbm, 365, rfl⟩
abbrev main_v257 : Ref sig .tc := ⟨.hbm, 366, rfl⟩
abbrev main_v258 : Ref sig .tc := ⟨.hbm, 367, rfl⟩
abbrev main_c_72 : Ref sig .tc := ⟨.hbm, 368, rfl⟩
abbrev main_v259 : Ref sig .tc := ⟨.hbm, 369, rfl⟩
abbrev main_v260 : Ref sig .tc := ⟨.hbm, 370, rfl⟩
abbrev main_c_73 : Ref sig .tc := ⟨.hbm, 371, rfl⟩
abbrev main_v261 : Ref sig .tc := ⟨.hbm, 372, rfl⟩
abbrev main_v262 : Ref sig .tc := ⟨.hbm, 373, rfl⟩
abbrev main_v263 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_v267 : Ref sig .tc := ⟨.hbm, 378, rfl⟩
abbrev main_c_74 : Ref sig .tc := ⟨.hbm, 379, rfl⟩
abbrev main_v268 : Ref sig .tc := ⟨.hbm, 380, rfl⟩
abbrev main_v269 : Ref sig .tc := ⟨.hbm, 381, rfl⟩
abbrev main_c_75 : Ref sig .tc := ⟨.hbm, 382, rfl⟩
abbrev main_v270 : Ref sig .tc := ⟨.hbm, 383, rfl⟩
abbrev main_v271 : Ref sig .tc := ⟨.hbm, 384, rfl⟩
abbrev main_v272 : Ref sig .tc := ⟨.hbm, 385, rfl⟩
abbrev main_c_76 : Ref sig .tc := ⟨.hbm, 386, rfl⟩
abbrev main_v273 : Ref sig .tc := ⟨.hbm, 387, rfl⟩
abbrev main_v274 : Ref sig .tc := ⟨.hbm, 388, rfl⟩
abbrev main_c_77 : Ref sig .tc := ⟨.hbm, 389, rfl⟩
abbrev main_v275 : Ref sig .tc := ⟨.hbm, 390, rfl⟩
abbrev main_v276 : Ref sig .tc := ⟨.hbm, 391, rfl⟩
abbrev main_v277 : Ref sig .tc := ⟨.hbm, 392, rfl⟩
abbrev main_v278 : Ref sig .tc := ⟨.hbm, 393, rfl⟩
abbrev main_v279 : Ref sig .tc := ⟨.hbm, 394, rfl⟩
abbrev main_v280 : Ref sig .tc := ⟨.hbm, 395, rfl⟩
abbrev main_v281 : Ref sig .tc := ⟨.hbm, 396, rfl⟩
abbrev main_c_78 : Ref sig .tc := ⟨.hbm, 397, rfl⟩
abbrev main_v282 : Ref sig .tc := ⟨.hbm, 398, rfl⟩
abbrev main_v283 : Ref sig .tc := ⟨.hbm, 399, rfl⟩
abbrev main_c_79 : Ref sig .tc := ⟨.hbm, 400, rfl⟩
abbrev main_v284 : Ref sig .tc := ⟨.hbm, 401, rfl⟩
abbrev main_v285 : Ref sig .tc := ⟨.hbm, 402, rfl⟩
abbrev main_v286 : Ref sig .tc := ⟨.hbm, 403, rfl⟩
abbrev main_c_80 : Ref sig .tc := ⟨.hbm, 404, rfl⟩
abbrev main_v287 : Ref sig .tc := ⟨.hbm, 405, rfl⟩
abbrev main_v288 : Ref sig .tc := ⟨.hbm, 406, rfl⟩
abbrev main_c_81 : Ref sig .tc := ⟨.hbm, 407, rfl⟩
abbrev main_v289 : Ref sig .tc := ⟨.hbm, 408, rfl⟩
abbrev main_v290 : Ref sig .tc := ⟨.hbm, 409, rfl⟩
abbrev main_v291 : Ref sig .tc := ⟨.hbm, 410, rfl⟩
abbrev main_v292 : Ref sig .tc := ⟨.hbm, 411, rfl⟩
abbrev main_v293 : Ref sig .tc := ⟨.hbm, 412, rfl⟩
abbrev main_v294 : Ref sig .tc := ⟨.hbm, 413, rfl⟩
abbrev main_v295 : Ref sig .tc := ⟨.hbm, 414, rfl⟩
abbrev main_cst_82 : Ref sig .tc := ⟨.hbm, 415, rfl⟩
abbrev main_v296 : Ref sig .tc := ⟨.hbm, 416, rfl⟩
abbrev main_v297 : Ref sig .tc := ⟨.hbm, 417, rfl⟩
abbrev main_v298 : Ref sig .tc := ⟨.hbm, 418, rfl⟩
abbrev main_v299 : Ref sig .tc := ⟨.hbm, 419, rfl⟩
abbrev main_v300 : Ref sig .tc := ⟨.hbm, 420, rfl⟩
abbrev main_v301 : Ref sig .tc := ⟨.hbm, 421, rfl⟩
abbrev main_v302 : Ref sig .tc := ⟨.hbm, 422, rfl⟩
abbrev main_v303 : Ref sig .tc := ⟨.hbm, 423, rfl⟩
abbrev main_v304 : Ref sig .tc := ⟨.hbm, 424, rfl⟩
abbrev main_cst_83 : Ref sig .tc := ⟨.hbm, 425, rfl⟩
abbrev main_v305 : Ref sig .tc := ⟨.hbm, 426, rfl⟩
abbrev main_v306 : Ref sig .tc := ⟨.hbm, 427, rfl⟩
abbrev main_v307 : Ref sig .tc := ⟨.hbm, 428, rfl⟩
abbrev main_v308 : Ref sig .tc := ⟨.hbm, 429, rfl⟩
abbrev main_v309 : Ref sig .tc := ⟨.hbm, 430, rfl⟩
abbrev main_v310 : Ref sig .tc := ⟨.hbm, 431, rfl⟩
abbrev main_v311 : Ref sig .tc := ⟨.hbm, 432, rfl⟩
abbrev main_v312 : Ref sig .tc := ⟨.hbm, 433, rfl⟩
abbrev main_v313 : Ref sig .tc := ⟨.hbm, 434, rfl⟩
abbrev main_cst_84 : Ref sig .tc := ⟨.hbm, 435, rfl⟩
abbrev main_v314 : Ref sig .tc := ⟨.hbm, 436, rfl⟩
abbrev main_v315 : Ref sig .tc := ⟨.hbm, 437, rfl⟩
abbrev main_v316 : Ref sig .tc := ⟨.hbm, 438, rfl⟩
abbrev main_v317 : Ref sig .tc := ⟨.hbm, 439, rfl⟩
abbrev main_v318 : Ref sig .tc := ⟨.hbm, 440, rfl⟩
abbrev main_v319 : Ref sig .tc := ⟨.hbm, 441, rfl⟩
abbrev main_v320 : Ref sig .tc := ⟨.hbm, 442, rfl⟩
abbrev main_v321 : Ref sig .tc := ⟨.hbm, 443, rfl⟩
abbrev main_v322 : Ref sig .tc := ⟨.hbm, 444, rfl⟩
abbrev main_v323 : Ref sig .tc := ⟨.hbm, 445, rfl⟩
abbrev main_v324 : Ref sig .tc := ⟨.hbm, 446, rfl⟩
abbrev main_v325 : Ref sig .tc := ⟨.hbm, 447, rfl⟩
abbrev main_v326 : Ref sig .tc := ⟨.hbm, 448, rfl⟩

abbrev nD : Nat := 1
abbrev τ : Topo := Topo.v7x

variable {F : FTy → Type} [FloatOps F]

class Facts₀ : Prop where
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bcast_S2000000_S1x2000000_1 : S2000000.BroadcastsInDim S1x2000000 (![1] : Fin 1 → Fin S1x2000000.rank)
  bcast_S1x2000000_S12x2000000_0_1 : S1x2000000.BroadcastsInDim S12x2000000 (![0, 1] : Fin 2 → Fin S12x2000000.rank)
  transposes_S12x2000000_S2000000x12_1_0 : S12x2000000.Transposes [1, 0] S2000000x12
  concatenates_S2000000x12_S2000000x12_S2000000x12_S2000000x36_d1 : Shape.Concatenates [S2000000x12, S2000000x12, S2000000x12] S2000000x36 1
  transposes_S32x36_S36x32_1_0 : S32x36.Transposes [1, 0] S36x32
  gather_S12x192x192_S2000000x2_S12x2000000_0_12_n_n_12_1_1211_wf : GatherDims.WF S12x192x192 S2000000x2 S12x2000000 [0] [1, 2] [] [1, 2] [] 1 ![12, 1, 1]
  dot_S2000000x36_S36x32_S2000000x32_1_0_0_1_n_n_wf : DotDims.WF S2000000x36 S36x32 S2000000x32 [1] [0] [0] [1] [] []

variable [Facts₀]

def gather_S12x192x192_S2000000x2_S12x2000000_0_12_n_n_12_1_1211 : GatherDims S12x192x192 S2000000x2 S12x2000000 where
  offsetDims := [0]
  collapsedSliceDims := [1, 2]
  operandBatchingDims := []
  startIndicesBatchingDims := []
  startIndexMap := [1, 2]
  indexVectorDim := 1
  sliceSizes := ![12, 1, 1]
  wf := gather_S12x192x192_S2000000x2_S12x2000000_0_12_n_n_12_1_1211_wf
def dot_S2000000x36_S36x32_S2000000x32_1_0_0_1_n_n : DotDims S2000000x36 S36x32 S2000000x32 where
  lhsContracting := [1]
  rhsContracting := [0]
  lhsNonContracting := [0]
  rhsNonContracting := [1]
  lhsBatch := []
  rhsBatch := []
  wf := dot_S2000000x36_S36x32_S2000000x32_1_0_0_1_n_n_wf

class Facts : Prop extends Facts₀ where

variable [Facts]
-- ==== Proof.Spec.lean ====
/-
  Bilinear sampling of a 192 × 192 table at one point, two ways.

  A coordinate c (a real number) is scaled to ρ = min 191 (max 0 (191·c)); its cell is q = ⌊ρ⌋, the next cell is
  q' = min (q + 1) 191 and the weight is f = ρ − q. The selection vector of the coordinate has 1 − f at position q
  and f at position q' (and the sum of the two where q = q' = 191, where f = 0).

  * Selecting with the two vectors — Σ_w (Σ_h V_v(h) · P(h, w)) · V_u(w) — is what a one-hot matrix product computes.
  * Reading the four corners and interpolating — (P(q_v,q_u)(1 − f_u) + P(q_v,q_u')f_u)(1 − f_v) + (P(q_v',q_u)(1 − f_u)
    + P(q_v',q_u')f_u) f_v — is what a gather computes.
  They are equal for real entries, by distributivity (`bilinear_law`); on the extended reals both are the coercion
  of that real number when the coordinate and the table's entries are real.

  The file also reads the integer side of the computation: the cell index as a 32-bit word, its successor clamped
  to 191, the comparison with a lane position, the sign test and the clamp a gather applies to an index.
-/
import Idealize.ShloMosaic.PureOps.Ideal
import Mathlib

noncomputable section

namespace Cert.Bilerp

open Idealize.ShloMosaic

/-! ## The real side -/

/-- The two-position selection vector: 1 − f at q, f at q'. -/
def hot (q q' : ℕ) (f : ℝ) (w : ℕ) : ℝ := (if w = q then 1 - f else 0) + (if w = q' then f else 0)

/-- Summing against a selection vector picks the two positions. -/
theorem sum_hot_mul {n : ℕ} (q q' : Fin n) (f : ℝ) (g : Fin n → ℝ) :
    ∑ h : Fin n, hot q q' f h * g h = (1 - f) * g q + f * g q' := by
  unfold hot
  simp only [add_mul, Finset.sum_add_distrib, ite_mul, zero_mul, Fin.val_inj, Finset.sum_ite_eq',
    Finset.mem_univ, if_true]

/-- Selection by two vectors is interpolation of the four corners. -/
theorem bilinear_law {n : ℕ} (qh qh' qw qw' : Fin n) (fh fw : ℝ) (P : Fin n → Fin n → ℝ) :
    ∑ w : Fin n, (∑ h : Fin n, hot qh qh' fh h * P h w) * hot qw qw' fw w
      = (P qh qw * (1 - fw) + P qh qw' * fw) * (1 - fh) + (P qh' qw * (1 - fw) + P qh' qw' * fw) * fh := by
  simp only [sum_hot_mul]
  calc ∑ w : Fin n, ((1 - fh) * P qh w + fh * P qh' w) * hot qw qw' fw w
      = ∑ w : Fin n, hot qw qw' fw w * ((1 - fh) * P qh w + fh * P qh' w) :=
        Finset.sum_congr rfl fun w _ => mul_comm _ _
    _ = (1 - fw) * ((1 - fh) * P qh qw + fh * P qh' qw) + fw * ((1 - fh) * P qh qw' + fh * P qh' qw') :=
        sum_hot_mul qw qw' fw _
    _ = _ := by ring

/-- The coercion of a finite real sum. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The scaled and clamped coordinate, its cell, the next cell, its weight. -/
def rho (x : ℝ) : ℝ := min 191 (max 0 (x * 191))
def cell (x : ℝ) : ℕ := ⌊rho x⌋₊
def cell' (x : ℝ) : ℕ := min (cell x + 1) 191
def wt (x : ℝ) : ℝ := rho x - cell x

theorem rho_nonneg (x : ℝ) : 0 ≤ rho x := le_min (by norm_num) (le_max_left _ _)
theorem rho_le (x : ℝ) : rho x ≤ 191 := min_le_left _ _
theorem cell_le (x : ℝ) : cell x ≤ 191 := Nat.floor_le_of_le (by simpa using rho_le x)
theorem cell'_le (x : ℝ) : cell' x ≤ 191 := min_le_right _ _

/-! ## The three float constants -/

theorem ofBits_191 : Ideal.ofBits .f32 0x433F0000#32 = ((191 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]

/-! ## The same quantities as the programs compute them, on the extended reals and on 32-bit words -/

def cs (c : EReal) : EReal :=
  min (Ideal.ofBits .f32 0x433F0000#32) (max (Ideal.ofBits .f32 0x00000000#32) (c * Ideal.ofBits .f32 0x433F0000#32))
def i0 (c : EReal) : BitVec 32 := Ideal.fptosi 32 (cs c)
def i1 (c : EReal) : BitVec 32 := IntOp.minsi (IntOp.addi (i0 c) 1#32) 191#32
def fr (c : EReal) : EReal := cs c - (((i0 c).toInt : ℝ) : EReal)
def hotE (c : EReal) (w : BitVec 32) : EReal :=
  Scalar.select (IntOp.cmpi .eq w (i0 c)) (Ideal.ofBits .f32 0x3F800000#32 - fr c) (Ideal.ofBits .f32 0x00000000#32)
    + Scalar.select (IntOp.cmpi .eq w (i1 c)) (fr c) (Ideal.ofBits .f32 0x00000000#32)

theorem cs_coe (x : ℝ) : cs (x : EReal) = ((rho x : ℝ) : EReal) := by
  have hmax : ∀ a b : ℝ, max (a : EReal) (b : EReal) = ((max a b : ℝ) : EReal) :=
    fun a b => (EReal.coe_strictMono.monotone.map_max).symm
  have hmin : ∀ a b : ℝ, min (a : EReal) (b : EReal) = ((min a b : ℝ) : EReal) :=
    fun a b => (EReal.coe_strictMono.monotone.map_min).symm
  unfold cs rho
  rw [ofBits_191, ofBits_zero, ← EReal.coe_mul, hmax, hmin]

theorem toInt_ofNat_small (k : ℕ) (hk : k < 2 ^ 31) : (BitVec.ofNat 32 k).toInt = (k : ℤ) := by
  have hm : k % 2 ^ 32 = k := Nat.mod_eq_of_lt (by omega)
  rw [BitVec.toInt_eq_toNat_cond, BitVec.toNat_ofNat, hm, if_pos (by omega)]

theorem i0_coe (x : ℝ) : i0 (x : EReal) = BitVec.ofNat 32 (cell x) := by
  unfold i0 Ideal.fptosi
  rw [cs_coe, Ideal.toIntClamped_coe, if_pos (rho_nonneg x)]
  have h1 : ⌊rho x⌋ = ((cell x : ℕ) : ℤ) := (Int.natCast_floor_eq_floor (rho_nonneg x)).symm
  have h2 := cell_le x
  rw [h1]
  have h3 : max (-((2 ^ (32 - 1) : ℕ) : ℤ)) (min (((2 ^ (32 - 1) : ℕ) : ℤ) - 1) ((cell x : ℕ) : ℤ)) = ((cell x : ℕ) : ℤ) := by
    norm_num; omega
  rw [h3, BitVec.ofInt_natCast]

/-! ## Words: comparisons, the clamped successor, the selection -/

theorem slt_ofNat (a b : ℕ) (ha : a < 2 ^ 31) (hb : b < 2 ^ 31) :
    (BitVec.ofNat 32 a).slt (BitVec.ofNat 32 b) = decide (a < b) := by
  unfold BitVec.slt
  rw [toInt_ofNat_small a ha, toInt_ofNat_small b hb]
  simp

theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  rw [slt_ofNat a b ha hb]
  by_cases h : a < b
  · rw [if_pos (by simpa using h), min_eq_left h.le]
  · rw [if_neg (by simpa using h), min_eq_right (not_lt.mp h)]

theorem ofNat_inj_small (a b : ℕ) (ha : a < 2 ^ 32) (hb : b < 2 ^ 32) (e : BitVec.ofNat 32 a = BitVec.ofNat 32 b) : a = b := by
  have := congrArg BitVec.toNat e
  rwa [BitVec.toNat_ofNat, BitVec.toNat_ofNat, Nat.mod_eq_of_lt ha, Nat.mod_eq_of_lt hb] at this

theorem cmpi_eq_ofNat (a b : ℕ) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  by_cases h : a = b
  · subst h; simp
  · have hne : BitVec.ofNat 32 a ≠ BitVec.ofNat 32 b := fun e => h (ofNat_inj_small a b ha hb e)
    simp [hne, h]

theorem select_ofBool {α : Type} (b : Bool) (x y : α) : Scalar.select (BitVec.ofBool b) x y = if b then x else y := by
  cases b
  · exact if_neg (by decide)
  · exact if_pos rfl

theorem succ_ofNat (k : ℕ) : IntOp.addi (BitVec.ofNat 32 k) 1#32 = BitVec.ofNat 32 (k + 1) := by
  show BitVec.ofNat 32 k + BitVec.ofNat 32 1 = _
  rw [← BitVec.ofNat_add]

theorem i1_coe (x : ℝ) : i1 (x : EReal) = BitVec.ofNat 32 (cell' x) := by
  unfold i1 cell'
  have hk := cell_le x
  rw [i0_coe, succ_ofNat]
  exact minsi_ofNat (cell x + 1) 191 (by omega) (by omega)

theorem fr_coe (x : ℝ) : fr (x : EReal) = ((wt x : ℝ) : EReal) := by
  unfold fr wt
  have hk := cell_le x
  rw [cs_coe, i0_coe, toInt_ofNat_small _ (by omega), Int.cast_natCast, ← EReal.coe_sub]

theorem hotE_coe (x : ℝ) (w : ℕ) (hw : w < 192) :
    hotE (x : EReal) (BitVec.ofNat 32 w) = ((hot (cell x) (cell' x) (wt x) w : ℝ) : EReal) := by
  have hk := cell_le x
  have hk' := cell'_le x
  unfold hotE hot
  rw [i0_coe, i1_coe, fr_coe, ofBits_one, ofBits_zero, cmpi_eq_ofNat w (cell x) (by omega) (by omega),
    cmpi_eq_ofNat w (cell' x) (by omega) (by omega), select_ofBool, select_ofBool, ← EReal.coe_sub, EReal.coe_add]
  simp only [decide_eq_true_eq, apply_ite (fun r : ℝ => (r : EReal))]

/-! ## The cells as positions of the table, and the interpolated value -/

def cellF (x : ℝ) : Fin 192 := ⟨cell x, by have := cell_le x; omega⟩
def cellF' (x : ℝ) : Fin 192 := ⟨cell' x, by have := cell'_le x; omega⟩

/-- The four corners of the cell of (xv, xu), interpolated: along u first, then along v. -/
def corners (p : Fin 192 → Fin 192 → ℝ) (xv xu : ℝ) : ℝ :=
  (p (cellF xv) (cellF xu) * (1 - wt xu) + p (cellF xv) (cellF' xu) * wt xu) * (1 - wt xv)
    + (p (cellF' xv) (cellF xu) * (1 - wt xu) + p (cellF' xv) (cellF' xu) * wt xu) * wt xv

/-- THE SELECTION FORM: the row selection contracted with the table, the result weighted by the lane selection and summed. -/
theorem selection_eq (xv xu : ℝ) (p : Fin 192 → Fin 192 → ℝ) :
    ∑ w : Fin 192, (∑ h : Fin 192, hotE (xv : EReal) (BitVec.ofNat 32 h.val) * ((p h w : ℝ) : EReal))
        * hotE (xu : EReal) (BitVec.ofNat 32 w.val)
      = ((corners p xv xu : ℝ) : EReal) := by
  have e : ∀ w : Fin 192, (∑ h : Fin 192, hotE (xv : EReal) (BitVec.ofNat 32 h.val) * ((p h w : ℝ) : EReal))
        * hotE (xu : EReal) (BitVec.ofNat 32 w.val)
      = (((∑ h : Fin 192, hot (cell xv) (cell' xv) (wt xv) h.val * p h w) * hot (cell xu) (cell' xu) (wt xu) w.val : ℝ) : EReal) := by
    intro w
    rw [EReal.coe_mul, coe_sum, hotE_coe xu w.val w.isLt]
    congr 1
    exact Finset.sum_congr rfl fun h _ => by rw [hotE_coe xv h.val h.isLt, EReal.coe_mul]
  rw [Finset.sum_congr rfl fun w _ => e w, ← coe_sum]
  exact congrArg _ (bilinear_law (cellF xv) (cellF' xv) (cellF xu) (cellF' xu) (wt xv) (wt xu) p)

/-! ## The gather's side: floor before the conversion, the sign test, the clamp of an index -/

def csR (c : EReal) : EReal :=
  min ((((191#32 : BitVec 32).toInt : ℝ)) : EReal) (max (Ideal.ofBits .f32 0x00000000#32) (c * Ideal.ofBits .f32 0x433F0000#32))
def j0 (c : EReal) : BitVec 32 := Ideal.fptosi 32 (Ideal.liftRound Int.floor (csR c))
def j1 (c : EReal) : BitVec 32 := IntOp.minsi (IntOp.addi (j0 c) 1#32) 191#32
def frR (c : EReal) : EReal := csR c - (((j0 c).toInt : ℝ) : EReal)
/-- A negative index counts from the end. -/
def wrap (b : BitVec 32) : BitVec 32 := Scalar.select (IntOp.cmpi .slt b 0#32) (IntOp.addi b 192#32) b
/-- The position a gather reads: the index, signed, clamped into the axis. -/
def gpos (b : BitVec 32) : ℕ := min b.toInt.toNat (192 - 1)

theorem csR_coe (x : ℝ) : csR (x : EReal) = ((rho x : ℝ) : EReal) := by
  have h : (((191#32 : BitVec 32).toInt : ℝ) : EReal) = Ideal.ofBits .f32 0x433F0000#32 := by
    rw [ofBits_191, show (191#32 : BitVec 32) = BitVec.ofNat 32 191 from rfl, toInt_ofNat_small 191 (by norm_num)]
    norm_num
  unfold csR
  rw [h]
  exact cs_coe x

theorem j0_coe (x : ℝ) : j0 (x : EReal) = BitVec.ofNat 32 (cell x) := by
  unfold j0 Ideal.fptosi
  rw [csR_coe, Ideal.liftRound_coe, Ideal.toIntClamped_coe]
  have h0 : (0 : ℝ) ≤ ((⌊rho x⌋ : ℤ) : ℝ) := by exact_mod_cast Int.floor_nonneg.mpr (rho_nonneg x)
  rw [if_pos h0, Int.floor_intCast]
  have h1 : ⌊rho x⌋ = ((cell x : ℕ) : ℤ) := (Int.natCast_floor_eq_floor (rho_nonneg x)).symm
  have h2 := cell_le x
  rw [h1]
  have h3 : max (-((2 ^ (32 - 1) : ℕ) : ℤ)) (min (((2 ^ (32 - 1) : ℕ) : ℤ) - 1) ((cell x : ℕ) : ℤ)) = ((cell x : ℕ) : ℤ) := by
    norm_num; omega
  rw [h3, BitVec.ofInt_natCast]

theorem j1_coe (x : ℝ) : j1 (x : EReal) = BitVec.ofNat 32 (cell' x) := by
  unfold j1 cell'
  have hk := cell_le x
  rw [j0_coe, succ_ofNat]
  exact minsi_ofNat (cell x + 1) 191 (by omega) (by omega)

theorem frR_coe (x : ℝ) : frR (x : EReal) = ((wt x : ℝ) : EReal) := by
  unfold frR wt
  have hk := cell_le x
  rw [csR_coe, j0_coe, toInt_ofNat_small _ (by omega), Int.cast_natCast, ← EReal.coe_sub]

theorem wrap_ofNat (k : ℕ) (hk : k ≤ 191) : wrap (BitVec.ofNat 32 k) = BitVec.ofNat 32 k := by
  unfold wrap
  have h : IntOp.cmpi .slt (BitVec.ofNat 32 k) 0#32 = BitVec.ofBool false := by
    show BitVec.ofBool ((BitVec.ofNat 32 k).slt (BitVec.ofNat 32 0)) = _
    rw [slt_ofNat k 0 (by omega) (by norm_num)]
    simp
  rw [h, select_ofBool]
  rfl

theorem gpos_ofNat (k : ℕ) (hk : k ≤ 191) : gpos (BitVec.ofNat 32 k) = k := by
  unfold gpos
  rw [toInt_ofNat_small k (by omega)]
  simp; omega

/-- THE CORNER FORM, as a gather-and-interpolate computes it from the words and the weights. -/
theorem corner_eq (xv xu : ℝ) (p : Fin 192 → Fin 192 → ℝ) (P : ℕ → ℕ → EReal)
    (hP : ∀ (a b : Fin 192), P a.val b.val = ((p a b : ℝ) : EReal)) :
    (P (gpos (wrap (j0 (xv : EReal)))) (gpos (wrap (j0 (xu : EReal)))) * (Ideal.ofBits .f32 0x3F800000#32 - frR (xu : EReal))
        + P (gpos (wrap (j0 (xv : EReal)))) (gpos (wrap (j1 (xu : EReal)))) * frR (xu : EReal))
        * (Ideal.ofBits .f32 0x3F800000#32 - frR (xv : EReal))
      + (P (gpos (wrap (j1 (xv : EReal)))) (gpos (wrap (j0 (xu : EReal)))) * (Ideal.ofBits .f32 0x3F800000#32 - frR (xu : EReal))
        + P (gpos (wrap (j1 (xv : EReal)))) (gpos (wrap (j1 (xu : EReal)))) * frR (xu : EReal))
        * frR (xv : EReal)
      = ((corners p xv xu : ℝ) : EReal) := by
  have a1 := cell_le xv
  have a2 := cell'_le xv
  have a3 := cell_le xu
  have a4 := cell'_le xu
  rw [j0_coe, j0_coe, j1_coe, j1_coe, frR_coe, frR_coe, ofBits_one, wrap_ofNat _ a1, wrap_ofNat _ a2, wrap_ofNat _ a3,
    wrap_ofNat _ a4, gpos_ofNat _ a1, gpos_ofNat _ a2, gpos_ofNat _ a3, gpos_ofNat _ a4]
  rw [show P (cell xv) (cell xu) = _ from hP (cellF xv) (cellF xu), show P (cell xv) (cell' xu) = _ from hP (cellF xv) (cellF' xu),
    show P (cell' xv) (cell xu) = _ from hP (cellF' xv) (cellF xu), show P (cell' xv) (cell' xu) = _ from hP (cellF' xv) (cellF' xu)]
  unfold corners
  simp only [EReal.coe_add, EReal.coe_mul, EReal.coe_sub]

end Cert.Bilerp

end
-- ==== Proof.KVal.lean ====
/-
  What the kernel's body stores at one grid point, read at an entry (n, o) of the 2000 × 32 output block.

  The body builds three selection matrices (2000 × 192) from the three coordinate columns of its block of points, and for
  each of the three tables and each of its 12 ranks a column: the row selection contracted with the rank's 192 × 192
  matrix, weighted by the lane selection and summed over the lanes. The 36 columns are laid side by side and multiplied
  by the 36 × 32 weight block. So the entry is Σ_k column_k(n) · weight(k, o), and column_k(n) is the selection form of
  the bilinear sample (Spec: `selection_eq`).
-/
import proofs.«115399_j36945308680677_1_alg».proof.Proof.Gen.KernelIdeal.Frame
import proofs.«115399_j36945308680677_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen
open Idealize.ShloMosaic Idealize.ShloMosaic.TcCoe Idealize.ShloMosaic.ValueIdx Idealize.SL.Sem
open Cert.Bilerp

/-! ## Layout readings -/

/-- A column broadcast along the lanes reads the column's entry. -/
theorem lane_bcast {α : Type} (x : S2000x1.Idx → α) (n : Fin 2000) (w : Fin 192) :
    broadcastTo S2000x192 x broadcasts_S2000x1_S2000x192 (ix2 n w) = x (ix2 n 0) :=
  broadcastTo_apply x _ (ix2 n w) (ix2 n 0) (fun a => match a with
    | ⟨0, _⟩ => rfl
    | ⟨1, _⟩ => rfl)

/-- The lane counter reads the lane. -/
theorem lane_iota (n : Fin 2000) (w : Fin 192) :
    iota .tc S2000x192 32 [1] iota_S2000x192_d1_w32 (ix2 n w) = BitVec.ofNat 32 w.val :=
  iota_single_apply .tc S2000x192 32 1 iota_S2000x192_d1_w32 (ix2 n w)

/-- A vector laid as a column reads the vector's entry. -/
theorem column_cast {α : Type} (x : S2000.Idx → α) (n : Fin 2000) :
    shapeCast S2000x1 x shapeCasts_S2000_S2000x1 (ix2 n 0) = x (ix1 n) :=
  shapeCast_apply x _ _ _ (by
    rw [Shape.rowMajor_val_two, Shape.rowMajor_val_one]
    show n.val = n.val * 1 + 0
    omega)

theorem cmpi_at {s : Shape} {w : Nat} (p : CmpIPredicate) (a b : IVec s w) (i : s.Idx) : cmpi p a b i = IntOp.cmpi p (a i) (b i) := rfl

/-! ## The three selection matrices -/

theorem sel_y (v : Vec Ideal S2000x1 .f32) (n : Fin 2000) (w : Fin 192) :
    k0_pay1 (F := Ideal) v (ix2 n w) = hotE (v (ix2 n 0)) (BitVec.ofNat 32 w.val) := by
  unfold k0_pay1
  simp only [shapeCast_self, addf_apply, select_apply, cmpi_at, lane_bcast]
  have hi : iota .tc S2000x192 32 [1] iota_S2000x192_d1_w32 (ix2 n w) = BitVec.ofNat 32 w.val := lane_iota n w
  unfold hotE
  rw [← hi]
  rfl

theorem sel_x (v : Vec Ideal S2000x1 .f32) (n : Fin 2000) (w : Fin 192) :
    k0_pay5 (F := Ideal) (k0_pay2 v) (k0_pay3 v) (k0_pay4 v) (ix2 n w) = hotE (v (ix2 n 0)) (BitVec.ofNat 32 w.val) := by
  unfold k0_pay5 k0_pay4 k0_pay3 k0_pay2
  simp only [shapeCast_self, addf_apply, select_apply, cmpi_at, lane_bcast]
  have hi : iota .tc S2000x192 32 [1] iota_S2000x192_d1_w32 (ix2 n w) = BitVec.ofNat 32 w.val := lane_iota n w
  unfold hotE
  rw [← hi]
  rfl

theorem sel_z (v : Vec Ideal S2000x1 .f32) (n : Fin 2000) (w : Fin 192) :
    k0_pay11 (F := Ideal) (k0_pay9 v) (k0_pay10 v) (ix2 n w) = hotE (v (ix2 n 0)) (BitVec.ofNat 32 w.val) := by
  unfold k0_pay11 k0_pay10 k0_pay9 k0_pay8 k0_pay7 k0_pay6
  simp only [shapeCast_self, addf_apply, select_apply, cmpi_at, lane_bcast]
  have hi : iota .tc S2000x192 32 [1] iota_S2000x192_d1_w32 (ix2 n w) = BitVec.ofNat 32 w.val := lane_iota n w
  unfold hotE
  rw [← hi]
  rfl

/-! ## The operand positions of the two matrix products -/

theorem dA_l0 (i : S2000x192.Idx) (q : dot_S2000x192_S192x192_S2000x192_1_0_0_1_n_n.contr.Idx) : (dot_S2000x192_S192x192_S2000x192_1_0_0_1_n_n.lhsIdx i q 0).val = (i 0).val := by
  unfold DotDims.lhsIdx
  rw [dif_neg (show ¬(0 : Fin S2000x192.rank) ∈ dot_S2000x192_S192x192_S2000x192_1_0_0_1_n_n.lhsBatch by decide), dif_pos (show (0 : Fin S2000x192.rank) ∈ dot_S2000x192_S192x192_S2000x192_1_0_0_1_n_n.lhsNonContracting by decide)]
  rfl
theorem dA_l1 (i : S2000x192.Idx) (q : dot_S2000x192_S192x192_S2000x192_1_0_0_1_n_n.contr.Idx) : (dot_S2000x192_S192x192_S2000x192_1_0_0_1_n_n.lhsIdx i q 1).val = (q ⟨0, by decide⟩).val :=
  DotDims.lhsIdx_val_of_single _ (cl := (1 : Fin S2000x192.rank)) rfl i q
theorem dA_r0 (i : S2000x192.Idx) (q : dot_S2000x192_S192x192_S2000x192_1_0_0_1_n_n.contr.Idx) : (dot_S2000x192_S192x192_S2000x192_1_0_0_1_n_n.rhsIdx i q 0).val = (q ⟨0, by decide⟩).val :=
  DotDims.rhsIdx_val_of_single _ (cr := (0 : Fin S192x192.rank)) rfl i q
theorem dA_r1 (i : S2000x192.Idx) (q : dot_S2000x192_S192x192_S2000x192_1_0_0_1_n_n.contr.Idx) : (dot_S2000x192_S192x192_S2000x192_1_0_0_1_n_n.rhsIdx i q 1).val = (i 1).val := by
  unfold DotDims.rhsIdx
  rw [dif_neg (show ¬(1 : Fin S192x192.rank) ∈ dot_S2000x192_S192x192_S2000x192_1_0_0_1_n_n.rhsBatch by decide), dif_pos (show (1 : Fin S192x192.rank) ∈ dot_S2000x192_S192x192_S2000x192_1_0_0_1_n_n.rhsNonContracting by decide)]
  rfl

theorem dB_l0 (i : S2000x32.Idx) (q : dot_S2000x36_S36x32_S2000x32_1_0_0_1_n_n.contr.Idx) : (dot_S2000x36_S36x32_S2000x32_1_0_0_1_n_n.lhsIdx i q 0).val = (i 0).val := by
  unfold DotDims.lhsIdx
  rw [dif_neg (show ¬(0 : Fin S2000x36.rank) ∈ dot_S2000x36_S36x32_S2000x32_1_0_0_1_n_n.lhsBatch by decide), dif_pos (show (0 : Fin S2000x36.rank) ∈ dot_S2000x36_S36x32_S2000x32_1_0_0_1_n_n.lhsNonContracting by decide)]
  rfl
theorem dB_l1 (i : S2000x32.Idx) (q : dot_S2000x36_S36x32_S2000x32_1_0_0_1_n_n.contr.Idx) : (dot_S2000x36_S36x32_S2000x32_1_0_0_1_n_n.lhsIdx i q 1).val = (q ⟨0, by decide⟩).val :=
  DotDims.lhsIdx_val_of_single _ (cl := (1 : Fin S2000x36.rank)) rfl i q
theorem dB_r0 (i : S2000x32.Idx) (q : dot_S2000x36_S36x32_S2000x32_1_0_0_1_n_n.contr.Idx) : (dot_S2000x36_S36x32_S2000x32_1_0_0_1_n_n.rhsIdx i q 0).val = (q ⟨0, by decide⟩).val :=
  DotDims.rhsIdx_val_of_single _ (cr := (0 : Fin S36x32.rank)) rfl i q
theorem dB_r1 (i : S2000x32.Idx) (q : dot_S2000x36_S36x32_S2000x32_1_0_0_1_n_n.contr.Idx) : (dot_S2000x36_S36x32_S2000x32_1_0_0_1_n_n.rhsIdx i q 1).val = (i 1).val := by
  unfold DotDims.rhsIdx
  rw [dif_neg (show ¬(1 : Fin S36x32.rank) ∈ dot_S2000x36_S36x32_S2000x32_1_0_0_1_n_n.rhsBatch by decide), dif_pos (show (1 : Fin S36x32.rank) ∈ dot_S2000x36_S36x32_S2000x32_1_0_0_1_n_n.rhsNonContracting by decide)]
  rfl

/-! ## One column -/

/-- The column of one rank: row selection times the rank's matrix, weighted by the lane selection, summed over the lanes. -/
def col (Vh : FVec Ideal S2000x192 .bf16) (Vw : FVec Ideal S2000x192 .f32) (Q : FVec Ideal S192x192 .bf16) : FVec Ideal S2000x1 .f32 :=
  shapeCast S2000x1 (multiReduction .add [1] S2000 (mulf (matmul dot_S2000x192_S192x192_S2000x192_1_0_0_1_n_n none Vh Q
    (constant S2000x192 .f32 0x00000000#32)) Vw) 0x00000000#32 reduces_S2000x192_S2000 (.inl rfl) rfl) shapeCasts_S2000_S2000x1

theorem col_apply (Vh : FVec Ideal S2000x192 .bf16) (Vw : FVec Ideal S2000x192 .f32) (Q : FVec Ideal S192x192 .bf16) (n : Fin 2000) :
    col Vh Vw Q (ix2 n 0) = ∑ w : Fin 192, (∑ h : Fin 192, Vh (ix2 n h) * Q (ix2 h w)) * Vw (ix2 n w) := by
  unfold col
  refine (column_cast _ n).trans ?_
  refine (Ideal.multiReduction_add_single _ 0x00000000#32 reduces_S2000x192_S2000 (.inl rfl) rfl (ix1 n)).trans ?_
  refine Finset.sum_congr rfl fun (w : Fin 192) _ => ?_
  have hl : reduces_S2000x192_S2000.lift (ix1 n) w = ix2 n w :=
    funext fun c => Fin.ext (match c with | ⟨0, _⟩ => rfl | ⟨1, _⟩ => rfl)
  rw [hl, mulf_apply]
  congr 1
  refine (Ideal.matmul_constant_zero_apply dot_S2000x192_S192x192_S2000x192_1_0_0_1_n_n none Vh Q (ix2 n w)).trans ?_
  rw [← Equiv.sum_comp (contrEquiv1 dot_S2000x192_S192x192_S2000x192_1_0_0_1_n_n 192 rfl rfl).symm]
  refine Finset.sum_congr rfl fun (h : Fin 192) _ => ?_
  have hk := contrEquiv1_symm_val dot_S2000x192_S192x192_S2000x192_1_0_0_1_n_n 192 rfl rfl h
  have el : dot_S2000x192_S192x192_S2000x192_1_0_0_1_n_n.lhsIdx (ix2 n w)
      ((contrEquiv1 dot_S2000x192_S192x192_S2000x192_1_0_0_1_n_n 192 rfl rfl).symm h) = ix2 n h :=
    funext fun a => Fin.ext (by
      match a with
      | ⟨0, _⟩ => exact dA_l0 _ _
      | ⟨1, _⟩ => exact (dA_l1 _ _).trans hk)
  have er : dot_S2000x192_S192x192_S2000x192_1_0_0_1_n_n.rhsIdx (ix2 n w)
      ((contrEquiv1 dot_S2000x192_S192x192_S2000x192_1_0_0_1_n_n 192 rfl rfl).symm h) = ix2 h w :=
    funext fun a => Fin.ext (by
      match a with
      | ⟨0, _⟩ => exact (dA_r0 _ _).trans hk
      | ⟨1, _⟩ => exact dA_r1 _ _)
  rw [el, er]

/-! ## The ranks of a table -/

theorem rk_inb (r : Fin 12) : ∀ a, (![r.val, 0, 0] : Fin 3 → Nat) a + S1x192x192.size a ≤ S12x192x192.size a := by
  intro a
  have hr := r.isLt
  match a with
  | ⟨0, _⟩ => show r.val + 1 ≤ 12; omega
  | ⟨1, _⟩ => show 0 + 192 ≤ 192; omega
  | ⟨2, _⟩ => show 0 + 192 ≤ 192; omega

/-- Rank r of a 12 × 192 × 192 block. -/
def rk (r : Fin 12) : Rect S12x192x192 := Rect.unit (s := S12x192x192) ![r.val, 0, 0] S1x192x192.size (rk_inb r)

/-- Rank r of a table as a 192 × 192 matrix. -/
def tab (xP : Vec Ideal S12x192x192 .bf16) (r : Fin 12) : FVec Ideal S192x192 .bf16 :=
  shapeCast S192x192 (View.ld xP (rk r)) shapeCasts_S1x192x192_S192x192

theorem tab_apply (xP : Vec Ideal S12x192x192 .bf16) (r : Fin 12) (h w : Fin 192) : tab xP r (ix2 h w) = xP (ix3 r h w) := by
  unfold tab
  refine (shapeCast_1ab_ab_apply (a := 192) (b := 192) (View.ld xP (rk r)) shapeCasts_S1x192x192_S192x192 h w).trans ?_
  show xP ((rk r).idx (ix3 0 h w)) = xP (ix3 r h w)
  refine congrArg xP (funext fun a => Fin.ext ?_)
  match a with
  | ⟨0, _⟩ => show r.val + 1 * 0 = r.val; omega
  | ⟨1, _⟩ => show 0 + 1 * h.val = h.val; omega
  | ⟨2, _⟩ => show 0 + 1 * w.val = w.val; omega

end Cert.KernelIdeal.KVal

end
-- ==== Proof.GSpec.lean ====
/-
  The result array as one function of the five argument arrays, entry by entry.

  Entry (N, o) of the result is Σ_k feature(N, k) · w(o, k) over the 36 features of point N. Feature k belongs to table
  k / 12 and rank k % 12: it is the bilinear sample (Spec: `corners`) of that rank's 192 × 192 matrix at the point's two
  coordinates for the table — (y, x) for the first table, (z, x) for the second, (z, y) for the third, the first of the
  pair running along the rows, the second along the lanes.
-/
import proofs.«115399_j36945308680677_1_alg».proof.Proof.Spec
import Idealize.ShloMosaic.Lib.ValueIdx

noncomputable section

namespace Cert.Bilerp

open Idealize.ShloMosaic Idealize.ShloMosaic.ValueIdx

/-- Table and rank of feature k. -/
def kp (k : Fin 36) : Fin 3 := ⟨k.val / 12, by have := k.isLt; omega⟩
def kr (k : Fin 36) : Fin 12 := ⟨k.val % 12, by omega⟩

/-- The coordinate column running along the rows of table p, and the one running along its lanes. -/
def vcol : Fin 3 → Fin 3 := ![1, 2, 2]
def ucol : Fin 3 → Fin 3 := ![0, 0, 1]

/-- Rank r of a table, as a real matrix. -/
def planeR (P : (⟨3, ![12, 192, 192]⟩ : Shape).Idx → EReal) (r : Fin 12) : Fin 192 → Fin 192 → ℝ :=
  fun a b => (P (ix3 r a b)).toReal

/-- Feature k of point N. -/
def feat (X : (⟨2, ![2000000, 3]⟩ : Shape).Idx → EReal) (Ps : Fin 3 → (⟨3, ![12, 192, 192]⟩ : Shape).Idx → EReal)
    (N : Fin 2000000) (k : Fin 36) : EReal :=
  ((corners (planeR (Ps (kp k)) (kr k)) (X (ix2 N (vcol (kp k)))).toReal (X (ix2 N (ucol (kp k)))).toReal : ℝ) : EReal)

/-- THE RESULT: features times weights. -/
def G (X : (⟨2, ![2000000, 3]⟩ : Shape).Idx → EReal) (P1 P2 P3 : (⟨3, ![12, 192, 192]⟩ : Shape).Idx → EReal)
    (W : (⟨2, ![32, 36]⟩ : Shape).Idx → EReal) : (⟨2, ![2000000, 32]⟩ : Shape).Idx → EReal :=
  fun i => ∑ k : Fin 36, feat X ![P1, P2, P3] (i 0) k * W (ix2 (i 1) k)

/-- An entry that is a real number is the coercion of its real part. -/
theorem coe_toReal_of_real {a : EReal} (h : ∃ x : ℝ, a = (x : EReal)) : ((a.toReal : ℝ) : EReal) = a := by
  obtain ⟨x, rfl⟩ := h
  rw [EReal.toReal_coe]

end Cert.Bilerp

end
-- ==== Proof.KPay.lean ====
/-
  The body's stored block as a product of the feature block with the weight block, and its entry (n, o).

  The 36 columns stand side by side in three groups of 12 (one group per table); within a group column r is the column of
  rank r (KVal: `col`). Entry (n, o) of the stored block is Σ_k column_k(n) · weight(k, o); with real coordinates and real
  table entries column_k(n) is the bilinear sample of its rank at the point's two coordinates (Spec: `selection_eq`).
-/
import proofs.«115399_j36945308680677_1_alg».proof.Proof.KVal
import proofs.«115399_j36945308680677_1_alg».proof.Proof.GSpec

set_option maxRecDepth 16384

noncomputable section

namespace Cert.KernelIdeal.KVal

open Cert.KernelIdeal Cert.KernelIdeal.Gen
open Idealize.ShloMosaic Idealize.ShloMosaic.TcCoe Idealize.ShloMosaic.ValueIdx Idealize.SL.Sem
open Cert.Bilerp

/-! ## Twelve columns side by side -/

/-- The columns of the 12 ranks of one table, side by side. -/
def cols12 (Vh : FVec Ideal S2000x192 .bf16) (Vw : FVec Ideal S2000x192 .f32) (xP : Vec Ideal S12x192x192 .bf16) : FVec Ideal S2000x12 .f32 :=
  concatenate S2000x12 1 (List.ofFn fun r : Fin 12 => (⟨S2000x1, col Vh Vw (tab xP r)⟩ : (s : Shape) × (s.Idx → Ideal .f32)))
    concatenates_S2000x1_S2000x1_S2000x1_S2000x1_S2000x1_S2000x1_S2000x1_S2000x1_S2000x1_S2000x1_S2000x1_S2000x1_S2000x12_d1

theorem cols12_apply (Vh : FVec Ideal S2000x192 .bf16) (Vw : FVec Ideal S2000x192 .f32) (xP : Vec Ideal S12x192x192 .bf16)
    (n : Fin 2000) (r : Fin 12) : cols12 Vh Vw xP (ix2 n r) = col Vh Vw (tab xP r) (ix2 n 0) := by
  unfold cols12
  exact concatenate_ofFn_unit_apply (a := (1 : Fin S2000x12.rank)) (fun r : Fin 12 => col Vh Vw (tab xP r)) _ rfl rfl
    (ix2 n r) r rfl (ix2 n 0) (fun b hb => match b with
      | ⟨0, _⟩ => rfl
      | ⟨1, _⟩ => absurd rfl hb)

/-! ## The three groups -/

/-- The 36 features of the block's points: the three tables' groups side by side, each with its row and lane selections. -/
def feats (Vy Vx Vz : FVec Ideal S2000x192 .f32) (x1 x2 x3 : Vec Ideal S12x192x192 .bf16) : FVec Ideal S2000x36 .f32 :=
  concatenate S2000x36 1 (List.ofFn fun p : Fin 3 => (⟨S2000x12, cols12 (truncf .bf16 (![Vy, Vz, Vz] p) bitsLt_bf16_f32) (![Vx, Vx, Vy] p) (![x1, x2, x3] p)⟩ : (s : Shape) × (s.Idx → Ideal .f32)))
    concatenates_S2000x12_S2000x12_S2000x12_S2000x36_d1

theorem feats_apply (Vy Vx Vz : FVec Ideal S2000x192 .f32) (x1 x2 x3 : Vec Ideal S12x192x192 .bf16) (n : Fin 2000) (k : Fin 36) :
    feats Vy Vx Vz x1 x2 x3 (ix2 n k)
      = col (truncf .bf16 (![Vy, Vz, Vz] (kp k)) bitsLt_bf16_f32) (![Vx, Vx, Vy] (kp k)) (tab (![x1, x2, x3] (kp k)) (kr k)) (ix2 n 0) := by
  unfold feats
  refine (concatenate_ofFn_apply (a := (1 : Fin S2000x36.rank))
    (fun p : Fin 3 => cols12 (truncf .bf16 (![Vy, Vz, Vz] p) bitsLt_bf16_f32) (![Vx, Vx, Vy] p) (![x1, x2, x3] p)) _ rfl 12 rfl
    (ix2 n k) (kp k) rfl (ix2 n (kr k)) rfl (fun b hb => match b with
      | ⟨0, _⟩ => rfl
      | ⟨1, _⟩ => absurd rfl hb)).trans ?_
  exact cols12_apply _ _ _ n (kr k)

/-! ## The stored block -/

/-- The three selection matrices of a block of points. -/
abbrev selY (x0 : Vec Ideal S2000x3 .f32) : FVec Ideal S2000x192 .f32 := k0_pay1 (View.ld x0 r0_1)
abbrev selX (x0 : Vec Ideal S2000x3 .f32) : FVec Ideal S2000x192 .f32 :=
  k0_pay5 (k0_pay2 (View.ld x0 r0_0)) (k0_pay3 (View.ld x0 r0_0)) (k0_pay4 (View.ld x0 r0_0))
abbrev selZ (x0 : Vec Ideal S2000x3 .f32) : FVec Ideal S2000x192 .f32 := k0_pay11 (k0_pay9 (View.ld x0 r0_2)) (k0_pay10 (View.ld x0 r0_2))

/-- Features times weights. -/
def payload (x0 : Vec Ideal S2000x3 .f32) (x1 x2 x3 : Vec Ideal S12x192x192 .bf16) (x4 : Vec Ideal S36x32 .bf16) : FVec Ideal S2000x32 .f32 :=
  matmul dot_S2000x36_S36x32_S2000x32_1_0_0_1_n_n none
    (truncf .bf16 (feats (selY x0) (selX x0) (selZ x0) x1 x2 x3) bitsLt_bf16_f32)
    (shapeCast S36x32 (View.ld x4 r0_15) shapeCasts_S36x32_S36x32 : FVec Ideal S36x32 .bf16) (constant S2000x32 .f32 0x00000000#32)

theorem hz2 : (![0, 0] : Fin 2 → Nat) = fun _ => 0 := funext fun a => by fin_cases a <;> rfl

/-- What the body leaves in the output's staging buffer is that product. -/
theorem out_eq (x0 : Vec Ideal S2000x3 .f32) (x1 x2 x3 : Vec Ideal S12x192x192 .bf16) (x4 : Vec Ideal S36x32 .bf16) :
    out0_5 (F := Ideal) x0 x1 x2 x3 x4 = payload x0 x1 x2 x3 x4 := by
  unfold out0_5
  rw [View.canon_unit_zero hz2]
  rfl

end Cert.KernelIdeal.KVal

end
-- ==== Proof.KRun.lean ====
/-
  From the blocks to the whole result array of the idealized kernel.

  Grid point t handles the points 2000·t … 2000·t + 1999: its block of the coordinate array is those rows, the three tables
  and the weights are whole at every point, and the block it writes back is rows 2000·t … of the result. The host lines in
  front of the kernel change the number format of the tables (nothing on the extended reals) and transpose the weights.
  So what point t writes back is block t of the one whole-array function `G` (GSpec), the blocks cover the result, and the
  result array after the run is `G` of the argument arrays — when every coordinate and every table entry is a real number.
-/
import proofs.«115399_j36945308680677_1_alg».proof.Proof.Gen.KernelIdeal.Value
import proofs.«115399_j36945308680677_1_alg».proof.Proof.KPay
import Idealize.ShloMosaic.Lib.StableHlo.Run

set_option maxRecDepth 16384

noncomputable section

namespace Cert.KernelIdeal.KRun

open Cert.KernelIdeal Cert.KernelIdeal.Gen Cert.KernelIdeal.KVal
open Idealize.ShloMosaic Idealize.ShloMosaic.TcCoe Idealize.ShloMosaic.ValueIdx Idealize.SL.Sem
open Idealize.ShloMosaic.Pipeline (Dat)
open Cert.Bilerp

variable (m : (ℓ : Loc nD τ sig) → Buf (Elt Ideal) ℓ) (ρ : Dev nD → PrngReg)

/-! ## The entry (n, o) of the stored block -/

theorem ld_col (x0 : Vec Ideal S2000x3 .f32) (n : Fin 2000) :
    View.ld x0 r0_0 (ix2 n 0) = x0 (ix2 n 0) ∧ View.ld x0 r0_1 (ix2 n 0) = x0 (ix2 n 1) ∧ View.ld x0 r0_2 (ix2 n 0) = x0 (ix2 n 2) := by
  refine ⟨?_, ?_, ?_⟩
  · show x0 (r0_0.idx (ix2 n 0)) = _
    refine congrArg x0 (funext fun a => Fin.ext ?_)
    match a with
    | ⟨0, _⟩ => show 0 + 1 * n.val = n.val; omega
    | ⟨1, _⟩ => show 0 + 1 * 0 = 0; omega
  · show x0 (r0_1.idx (ix2 n 0)) = _
    refine congrArg x0 (funext fun a => Fin.ext ?_)
    match a with
    | ⟨0, _⟩ => show 0 + 1 * n.val = n.val; omega
    | ⟨1, _⟩ => show 1 + 1 * 0 = 1; omega
  · show x0 (r0_2.idx (ix2 n 0)) = _
    refine congrArg x0 (funext fun a => Fin.ext ?_)
    match a with
    | ⟨0, _⟩ => show 0 + 1 * n.val = n.val; omega
    | ⟨1, _⟩ => show 2 + 1 * 0 = 2; omega

/-- The row selection of table p at (n, h) and its lane selection at (n, w), from the point's two coordinates. -/
theorem selv_apply (x0 : Vec Ideal S2000x3 .f32) (n : Fin 2000) (p : Fin 3) (h : Fin 192) :
    (![selY x0, selZ x0, selZ x0] p) (ix2 n h) = hotE (x0 (ix2 n (vcol p))) (BitVec.ofNat 32 h.val) := by
  obtain ⟨e0, e1, e2⟩ := ld_col x0 n
  match p with
  | ⟨0, _⟩ => exact (sel_y _ n h).trans (by rw [e1]; rfl)
  | ⟨1, _⟩ => exact (sel_z _ n h).trans (by rw [e2]; rfl)
  | ⟨2, _⟩ => exact (sel_z _ n h).trans (by rw [e2]; rfl)

theorem selu_apply (x0 : Vec Ideal S2000x3 .f32) (n : Fin 2000) (p : Fin 3) (w : Fin 192) :
    (![selX x0, selX x0, selY x0] p) (ix2 n w) = hotE (x0 (ix2 n (ucol p))) (BitVec.ofNat 32 w.val) := by
  obtain ⟨e0, e1, e2⟩ := ld_col x0 n
  match p with
  | ⟨0, _⟩ => exact (sel_x _ n w).trans (by rw [e0]; rfl)
  | ⟨1, _⟩ => exact (sel_x _ n w).trans (by rw [e0]; rfl)
  | ⟨2, _⟩ => exact (sel_y _ n w).trans (by rw [e1]; rfl)

/-- The weight block is loaded whole. -/
theorem wblock (x4 : Vec Ideal S36x32 .bf16) (k : Fin 36) (o : Fin 32) :
    (shapeCast S36x32 (View.ld x4 r0_15) shapeCasts_S36x32_S36x32 : FVec Ideal S36x32 .bf16) (ix2 k o) = x4 (ix2 k o) := by
  have h1 : View.ld x4 r0_15 = x4 := View.ld_unit_zero (S := S36x32) hz2 _ x4
  refine (shapeCast_apply (View.ld x4 r0_15) shapeCasts_S36x32_S36x32 (ix2 k o) (ix2 k o) rfl).trans ?_
  exact congrFun h1 _

/-- Entry (n, o) of the stored block: features times weights over the 36 features. -/
theorem payload_sum (x0 : Vec Ideal S2000x3 .f32) (x1 x2 x3 : Vec Ideal S12x192x192 .bf16) (x4 : Vec Ideal S36x32 .bf16)
    (n : Fin 2000) (o : Fin 32) :
    payload x0 x1 x2 x3 x4 (ix2 n o)
      = ∑ k : Fin 36, feats (selY x0) (selX x0) (selZ x0) x1 x2 x3 (ix2 n k) * x4 (ix2 k o) := by
  unfold payload
  refine (Ideal.matmul_constant_zero_apply dot_S2000x36_S36x32_S2000x32_1_0_0_1_n_n none _ _ (ix2 n o)).trans ?_
  rw [← Equiv.sum_comp (contrEquiv1 dot_S2000x36_S36x32_S2000x32_1_0_0_1_n_n 36 rfl rfl).symm]
  refine Finset.sum_congr rfl fun (k : Fin 36) _ => ?_
  have hk := contrEquiv1_symm_val dot_S2000x36_S36x32_S2000x32_1_0_0_1_n_n 36 rfl rfl k
  have el : dot_S2000x36_S36x32_S2000x32_1_0_0_1_n_n.lhsIdx (ix2 n o)
      ((contrEquiv1 dot_S2000x36_S36x32_S2000x32_1_0_0_1_n_n 36 rfl rfl).symm k) = ix2 n k :=
    funext fun a => Fin.ext (by
      match a with
      | ⟨0, _⟩ => exact dB_l0 _ _
      | ⟨1, _⟩ => exact (dB_l1 _ _).trans hk)
  have er : dot_S2000x36_S36x32_S2000x32_1_0_0_1_n_n.rhsIdx (ix2 n o)
      ((contrEquiv1 dot_S2000x36_S36x32_S2000x32_1_0_0_1_n_n 36 rfl rfl).symm k) = ix2 k o :=
    funext fun a => Fin.ext (by
      match a with
      | ⟨0, _⟩ => exact (dB_r0 _ _).trans hk
      | ⟨1, _⟩ => exact dB_r1 _ _)
  rw [el, er, wblock]
  rfl

/-- Feature k of point n of the block, for real coordinates and real table entries: the bilinear sample. -/
theorem feat_block (x0 : Vec Ideal S2000x3 .f32) (x1 x2 x3 : Vec Ideal S12x192x192 .bf16)
    (h0 : ∀ j, ∃ x : ℝ, x0 j = (x : EReal)) (hP : ∀ (p : Fin 3) j, ∃ y : ℝ, (![x1, x2, x3] p) j = (y : EReal))
    (n : Fin 2000) (k : Fin 36) :
    feats (selY x0) (selX x0) (selZ x0) x1 x2 x3 (ix2 n k)
      = ((corners (planeR (![x1, x2, x3] (kp k)) (kr k)) (x0 (ix2 n (vcol (kp k)))).toReal (x0 (ix2 n (ucol (kp k)))).toReal : ℝ) : EReal) := by
  rw [feats_apply, col_apply]
  have ev := coe_toReal_of_real (h0 (ix2 n (vcol (kp k))))
  have eu := coe_toReal_of_real (h0 (ix2 n (ucol (kp k))))
  rw [← selection_eq]
  refine Finset.sum_congr rfl fun (w : Fin 192) _ => ?_
  congr 1
  · refine Finset.sum_congr rfl fun (h : Fin 192) _ => ?_
    congr 1
    · exact (selv_apply x0 n (kp k) h).trans (by rw [ev])
    · rw [tab_apply]
      exact (coe_toReal_of_real (hP (kp k) (ix3 (kr k) h w))).symm
  · exact (selu_apply x0 n (kp k) w).trans (by rw [eu])

/-! ## The arrays as the region finds them -/

/-- The argument arrays of core c, as functions of an index. -/
abbrev A0 (c : Dev nD) : S2000000x3.Idx → EReal := m ((c : Thread nD τ).loc main_arg0)
abbrev A1 (c : Dev nD) : S12x192x192.Idx → EReal := m ((c : Thread nD τ).loc main_arg1)
abbrev A2 (c : Dev nD) : S12x192x192.Idx → EReal := m ((c : Thread nD τ).loc main_arg2)
abbrev A3 (c : Dev nD) : S12x192x192.Idx → EReal := m ((c : Thread nD τ).loc main_arg3)
abbrev A4 (c : Dev nD) : S32x36.Idx → EReal := m ((c : Thread nD τ).loc main_arg4)

/-- Every coordinate and every table entry of core c is a real number. -/
def RealArgs (c : Dev nD) : Prop :=
  (∀ j, ∃ x : ℝ, A0 m c j = (x : EReal)) ∧ (∀ j, ∃ y : ℝ, A1 m c j = (y : EReal)) ∧ (∀ j, ∃ y : ℝ, A2 m c j = (y : EReal))
    ∧ (∀ j, ∃ y : ℝ, A3 m c j = (y : EReal))

/-- The host lines in front of the kernel: the tables in the narrower format are the tables, the weights are transposed. -/
theorem V_v2 (c : Dev nD) : (V m c main_v2 : S12x192x192.Idx → EReal) = A1 m c := by
  dsimp only [Gen.V, Gen.hostOps0]; after_results; rfl
theorem V_v3 (c : Dev nD) : (V m c main_v3 : S12x192x192.Idx → EReal) = A2 m c := by
  dsimp only [Gen.V, Gen.hostOps0]; after_results; rfl
theorem V_v4 (c : Dev nD) : (V m c main_v4 : S12x192x192.Idx → EReal) = A3 m c := by
  dsimp only [Gen.V, Gen.hostOps0]; after_results; rfl
theorem V_v1 (c : Dev nD) : (V m c main_v1 : S36x32.Idx → EReal) = transpose S36x32 [1, 0] (A4 m c) transposes_S32x36_S36x32_1_0 := by
  dsimp only [Gen.V, Gen.hostOps0]; after_results; rfl

/-! ## The windows' blocks at a grid point -/

/-- The printed index maps, decided over the 1000 points: the coordinate block and the result block move with the point,
    the tables and the weights stay. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row n of the block of point t is row 2000·t + n of the array. -/
def rowOf (t : Fin cfg0.N) (n : Fin 2000) : Fin 2000000 :=
  ⟨t.val * 2000 + n.val, by have h := t.isLt; have hN : cfg0.N = 1000 := N_0; have hn := n.isLt; omega⟩

theorem blk0 (c : Dev nD) (t : Fin cfg0.N) (n : Fin 2000) (j : Fin 3) :
    iblk m c 0 t (ix2 n j) = A0 m c (ix2 (rowOf t n) j) := by
  obtain ⟨e00, e01, -⟩ := idx_facts t
  show V m c main_arg0 (((cfg0.win 0).blk t).view.emb (ix2 n j)) = _
  rw [V_main_arg0]
  refine congrArg (m ((c : Thread nD τ).loc main_arg0)) (funext fun a => Fin.ext ?_)
  match a with
  | ⟨0, _⟩ => show win0_0.index t (0 : Fin 2) * 2000 + 1 * n.val = t.val * 2000 + n.val; rw [e00]; omega
  | ⟨1, _⟩ => show win0_0.index t (1 : Fin 2) * 3 + 1 * j.val = j.val; rw [e01]; omega

theorem blk1 (c : Dev nD) (t : Fin cfg0.N) (j : S12x192x192.Idx) : iblk m c 1 t j = A1 m c j := by
  obtain ⟨-, -, e0, e1, e2, -⟩ := idx_facts t
  show V m c main_v2 (((cfg0.win 1).blk t).view.emb j) = _
  refine (congrFun (V_v2 m c) _).trans (congrArg (A1 m c) (funext fun a => Fin.ext ?_))
  match a with
  | ⟨0, _⟩ => show win0_1.index t (0 : Fin 3) * 12 + 1 * (j 0).val = (j 0).val; rw [e0]; omega
  | ⟨1, _⟩ => show win0_1.index t (1 : Fin 3) * 192 + 1 * (j 1).val = (j 1).val; rw [e1]; omega
  | ⟨2, _⟩ => show win0_1.index t (2 : Fin 3) * 192 + 1 * (j 2).val = (j 2).val; rw [e2]; omega

theorem blk2 (c : Dev nD) (t : Fin cfg0.N) (j : S12x192x192.Idx) : iblk m c 2 t j = A2 m c j := by
  obtain ⟨-, -, -, -, -, e0, e1, e2, -⟩ := idx_facts t
  show V m c main_v3 (((cfg0.win 2).blk t).view.emb j) = _
  refine (congrFun (V_v3 m c) _).trans (congrArg (A2 m c) (funext fun a => Fin.ext ?_))
  match a with
  | ⟨0, _⟩ => show win0_2.index t (0 : Fin 3) * 12 + 1 * (j 0).val = (j 0).val; rw [e0]; omega
  | ⟨1, _⟩ => show win0_2.index t (1 : Fin 3) * 192 + 1 * (j 1).val = (j 1).val; rw [e1]; omega
  | ⟨2, _⟩ => show win0_2.index t (2 : Fin 3) * 192 + 1 * (j 2).val = (j 2).val; rw [e2]; omega

theorem blk3 (c : Dev nD) (t : Fin cfg0.N) (j : S12x192x192.Idx) : iblk m c 3 t j = A3 m c j := by
  obtain ⟨-, -, -, -, -, -, -, -, e0, e1, e2, -⟩ := idx_facts t
  show V m c main_v4 (((cfg0.win 3).blk t).view.emb j) = _
  refine (congrFun (V_v4 m c) _).trans (congrArg (A3 m c) (funext fun a => Fin.ext ?_))
  match a with
  | ⟨0, _⟩ => show win0_3.index t (0 : Fin 3) * 12 + 1 * (j 0).val = (j 0).val; rw [e0]; omega
  | ⟨1, _⟩ => show win0_3.index t (1 : Fin 3) * 192 + 1 * (j 1).val = (j 1).val; rw [e1]; omega
  | ⟨2, _⟩ => show win0_3.index t (2 : Fin 3) * 192 + 1 * (j 2).val = (j 2).val; rw [e2]; omega

theorem blk4 (c : Dev nD) (t : Fin cfg0.N) (k : Fin 36) (o : Fin 32) : iblk m c 4 t (ix2 k o) = A4 m c (ix2 o k) := by
  obtain ⟨-, -, -, -, -, -, -, -, -, -, -, e0, e1, -⟩ := idx_facts t
  show V m c main_v1 (((cfg0.win 4).blk t).view.emb (ix2 k o)) = _
  have he : ((cfg0.win 4).blk t).view.emb (ix2 k o) = ix2 k o := funext fun a => Fin.ext (by
    match a with
    | ⟨0, _⟩ => show win0_4.index t (0 : Fin 2) * 36 + 1 * k.val = k.val; rw [e0]; omega
    | ⟨1, _⟩ => show win0_4.index t (1 : Fin 2) * 32 + 1 * o.val = o.val; rw [e1]; omega)
  rw [he]
  refine (congrFun (V_v1 m c) _).trans ?_
  exact transpose_apply [1, 0] (A4 m c) transposes_S32x36_S36x32_1_0 (ix2 k o) (ix2 o k) (fun b => match b with
    | ⟨0, _⟩ => rfl
    | ⟨1, _⟩ => rfl)

theorem emb5 (t : Fin cfg0.N) (n : Fin 2000) (o : Fin 32) : ((cfg0.win 5).blk t).view.emb (ix2 n o) = ix2 (rowOf t n) o := by
  obtain ⟨-, -, -, -, -, -, -, -, -, -, -, -, -, e0, e1⟩ := idx_facts t
  refine funext fun a => Fin.ext ?_
  match a with
  | ⟨0, _⟩ => show win0_5.index t (0 : Fin 2) * 2000 + 1 * n.val = t.val * 2000 + n.val; rw [e0]; omega
  | ⟨1, _⟩ => show win0_5.index t (1 : Fin 2) * 32 + 1 * o.val = o.val; rw [e1]; omega

/-! ## What point t writes back is block t of `G` -/

theorem flushed_eq (c : Dev nD) (hfin : RealArgs m c) (t : Fin cfg0.N) :
    (dats m 0 c).flushed 5 t
      = ((cfg0.win 5).blk t).view.read (Elt Ideal) (G (A0 m c) (A1 m c) (A2 m c) (A3 m c) (A4 m c)) := by
  obtain ⟨f0, f1, f2, f3⟩ := hfin
  rw [Value.flushed5, out_eq]
  funext j
  obtain ⟨n, o, rfl⟩ : ∃ (n : Fin 2000) (o : Fin 32), j = ix2 n o := ⟨j 0, j 1, eq_ix2 (n0 := 2000) (n1 := 32) j⟩
  show payload (iblk m c 0 t) (iblk m c 1 t) (iblk m c 2 t) (iblk m c 3 t) (iblk m c 4 t) (ix2 n o)
    = G (A0 m c) (A1 m c) (A2 m c) (A3 m c) (A4 m c) (((cfg0.win 5).blk t).view.emb (ix2 n o))
  have h0 : ∀ j, ∃ x : ℝ, iblk m c 0 t j = (x : EReal) := fun j => by
    obtain ⟨n', j', rfl⟩ : ∃ (n' : Fin 2000) (j' : Fin 3), j = ix2 n' j' := ⟨j 0, j 1, eq_ix2 (n0 := 2000) (n1 := 3) j⟩
    rw [blk0]; exact f0 _
  have hP : ∀ (p : Fin 3) j, ∃ y : ℝ, (![iblk m c 1 t, iblk m c 2 t, iblk m c 3 t] p) j = (y : EReal) := fun p j => by
    match p with
    | ⟨0, _⟩ => show ∃ y : ℝ, iblk m c 1 t j = (y : EReal); rw [blk1]; exact f1 _
    | ⟨1, _⟩ => show ∃ y : ℝ, iblk m c 2 t j = (y : EReal); rw [blk2]; exact f2 _
    | ⟨2, _⟩ => show ∃ y : ℝ, iblk m c 3 t j = (y : EReal); rw [blk3]; exact f3 _
  have hpl : ∀ p : Fin 3, (![iblk m c 1 t, iblk m c 2 t, iblk m c 3 t] p : S12x192x192.Idx → EReal) = ![A1 m c, A2 m c, A3 m c] p := fun p => by
    match p with
    | ⟨0, _⟩ => exact funext fun j => blk1 m c t j
    | ⟨1, _⟩ => exact funext fun j => blk2 m c t j
    | ⟨2, _⟩ => exact funext fun j => blk3 m c t j
  rw [emb5, payload_sum]
  unfold G
  refine Finset.sum_congr rfl fun (k : Fin 36) _ => ?_
  rw [feat_block _ _ _ _ h0 hP n k, blk4, blk0, blk0, hpl]
  rfl

/-! ## The blocks cover the result -/

theorem mem_blk5 (t : Fin cfg0.N) (i : S2000000x32.Idx) :
    i ∈ ((cfg0.win 5).blk t).view.set ↔ ∀ a : Fin 2, win0_5.index t a * S2000x32.size a ≤ (i a).val ∧ (i a).val < win0_5.index t a * S2000x32.size a + S2000x32.size a := by
  show i ∈ ((View.whole main_v5).slice (win0_5.rect t)).set ↔ _
  rw [View.set_slice_whole, Rect.mem_set_unit]
  exact Iff.rfl

theorem cover (i : S2000000x32.Idx) : ∃ t : Fin cfg0.N, (cfg0.win 5).flush t = true ∧ i ∈ ((cfg0.win 5).blk t).view.set := by
  have hi0 : (i 0).val < 2000000 := (i 0).isLt
  have hi1 : (i 1).val < 32 := (i 1).isLt
  have hN : cfg0.N = 1000 := N_0
  have hlt : (i 0).val / 2000 < cfg0.N := by rw [hN]; omega
  refine ⟨⟨(i 0).val / 2000, hlt⟩, flush0_5 _, ?_⟩
  rw [mem_blk5]
  obtain ⟨-, -, -, -, -, -, -, -, -, -, -, -, -, e0, e1⟩ := idx_facts ⟨(i 0).val / 2000, hlt⟩
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hlt⟩ (1 : Fin 2) * 32 ≤ (i 1).val ∧ (i 1).val < win0_5.index ⟨(i 0).val / 2000, hlt⟩ (1 : Fin 2) * 32 + 32
    rw [e1]; omega

/-! ## The result array, and the run -/

theorem final (c : Dev nD) (hfin : RealArgs m c) :
    (dats m 0 c).arrAt 5 cfg0.N = G (A0 m c) (A1 m c) (A2 m c) (A3 m c) (A4 m c) :=
  (dats m 0 c).arrAt_eq_of_cover 5 (G (A0 m c) (A1 m c) (A2 m c) (A3 m c) (A4 m c)) (fun t _ => flushed_eq m c hfin t) cover

/-- The idealized kernel's run: the result array ends at `G` of the arguments, the arguments unchanged. -/
theorem run (hfin : ∀ c, RealArgs m c) : θ_run defs (onTc (τ := τ) (main (F := Ideal))) ⟨m, fun _ => 0, ρ⟩ fun r => ∀ c : Dev nD,
      r.2.mem ((c : Thread nD τ).loc main_v5) = G (A0 m c) (A1 m c) (A2 m c) (A3 m c) (A4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hfin c)), (h c).2⟩) (Value.run_blocks m ρ)

end Cert.KernelIdeal.KRun

end
-- ==== Proof.RSample.lean ====
/-
  One table sampled the gather way at two coordinate vectors, and its entry (N, r).

  The sample scales and clamps the two coordinates of every point, takes the floor as the cell, the cell plus one clamped
  to 191 as the next cell, reads the table at the four corners for all 12 ranks at once ([12, N] arrays), and interpolates
  along the lanes first and along the rows second; the result is transposed to [N, 12]. Its entry (N, r) is the corner form
  of the bilinear sample (Spec: `corner_eq`), which for real coordinates and real table entries is the bilinear sample.
-/
import proofs.«115399_j36945308680677_1_alg».proof.Proof.Gen.ReferenceIdeal
import proofs.«115399_j36945308680677_1_alg».proof.Proof.GSpec
import Idealize.ShloMosaic.Lib.Pipeline.Value
import Idealize.ShloMosaic.Lib.ValueIdx
import Idealize.ShloMosaic.PureOps.Ideal.Laws

set_option maxRecDepth 16384

noncomputable section

namespace Cert.ReferenceIdeal.RVal

open Cert.ReferenceIdeal Cert.ReferenceIdeal.Gen
open Idealize.ShloMosaic Idealize.ShloMosaic.TcCoe Idealize.ShloMosaic.ValueIdx Idealize.SL.Sem
open Cert.Bilerp

/-! ## One table sampled at two coordinate vectors, as the program spells it -/

/-- A scalar spread over the points. -/
abbrev sc {α : Type} (y : S_.Idx → α) : S2000000.Idx → α := broadcastInDim S2000000 ![] bcast_S_S2000000 y

/-- The scaled, clamped coordinate; its cell; the next cell; its weight. -/
def clipV (u : FVec Ideal S2000000 .f32) : FVec Ideal S2000000 .f32 :=
  minimumf (sc (sitofp .f32 (constantI S_ 32 191#32)))
    (maximumf (sc (constant (F := Ideal) S_ .f32 0x00000000#32)) (mulf u (sc (constant (F := Ideal) S_ .f32 0x433F0000#32))))
def cellV (u : FVec Ideal S2000000 .f32) : IVec S2000000 32 := fptosi 32 (Host.floor (clipV u))
def cellV' (u : FVec Ideal S2000000 .f32) : IVec S2000000 32 :=
  minsi (addi (cellV u) (sc (constantI S_ 32 1#32))) (sc (constantI S_ 32 191#32))
def wtV (u : FVec Ideal S2000000 .f32) : FVec Ideal S2000000 .f32 := subf (clipV u) (sitofp .f32 (cellV u))

/-- A negative index counts from the end. -/
def wrapV (b : IVec S2000000 32) : IVec S2000000 32 :=
  select (cmpi .slt b (sc (constantI S_ 32 0#32))) (addi b (sc (constantI S_ 32 192#32))) b

/-- The table read at (row index a, lane index b) of every point, all ranks at once. -/
def gat (P : FVec Ideal S12x192x192 .f32) (a b : IVec S2000000 32) : FVec Ideal S12x2000000 .f32 :=
  Host.gather gather_S12x192x192_S2000000x2_S12x2000000_0_12_n_n_12_1_1211 P
    (concatenate S2000000x2 1 [⟨S2000000x1, broadcastInDim S2000000x1 ![0] bcast_S2000000_S2000000x1_0 (wrapV a)⟩,
      ⟨S2000000x1, broadcastInDim S2000000x1 ![0] bcast_S2000000_S2000000x1_0 (wrapV b)⟩] concatenates_S2000000x1_S2000000x1_S2000000x2_d1)

/-- A per-point value repeated for the 12 ranks. -/
def rb (y : FVec Ideal S2000000 .f32) : FVec Ideal S12x2000000 .f32 :=
  broadcastInDim S12x2000000 ![0, 1] bcast_S1x2000000_S12x2000000_0_1 (broadcastInDim S1x2000000 ![1] bcast_S2000000_S1x2000000_1 y)

abbrev oneV : FVec Ideal S2000000 .f32 := sc (constant (F := Ideal) S_ .f32 0x3F800000#32)

/-- The sample: corners (rows V, lanes U), interpolated along the lanes, then along the rows, ranks last. -/
def samplePlane (P : FVec Ideal S12x192x192 .f32) (U V : FVec Ideal S2000000 .f32) : FVec Ideal S2000000x12 .f32 :=
  transpose S2000000x12 [1, 0]
    (addf
      (mulf (addf (mulf (gat P (cellV V) (cellV U)) (rb (subf oneV (wtV U)))) (mulf (gat P (cellV V) (cellV' U)) (rb (wtV U))))
        (rb (subf oneV (wtV V))))
      (mulf (addf (mulf (gat P (cellV' V) (cellV U)) (rb (subf oneV (wtV U)))) (mulf (gat P (cellV' V) (cellV' U)) (rb (wtV U))))
        (rb (wtV V))))
    transposes_S12x2000000_S2000000x12_1_0

/-! ## Reading its pieces at an index -/

theorem gpos_lt (b : BitVec 32) : gpos b < 192 := by unfold gpos; omega

/-- The gather at (r, N): the table at rank r, at the two indices of point N, signed and clamped into the axes. -/
theorem gather_apply (x : FVec Ideal S12x192x192 .f32) (idx : IVec S2000000x2 32) (r : Fin 12) (N : Fin 2000000) :
    Host.gather gather_S12x192x192_S2000000x2_S12x2000000_0_12_n_n_12_1_1211 x idx (ix2 r N)
      = x (ix3 r ⟨gpos (idx (ix2 N 0)), gpos_lt _⟩ ⟨gpos (idx (ix2 N 1)), gpos_lt _⟩) := by
  unfold Host.gather
  refine congrArg x (funext fun a => Fin.ext ?_)
  have hs0 : gather_S12x192x192_S2000000x2_S12x2000000_0_12_n_n_12_1_1211.siIdx (ix2 r N)
      ⟨List.idxOf (1 : Fin S12x192x192.rank) gather_S12x192x192_S2000000x2_S12x2000000_0_12_n_n_12_1_1211.startIndexMap,
        List.idxOf_lt_length_iff.2 (by decide)⟩ = ix2 N 0 := by
    funext b; refine Fin.ext ?_
    match b with
    | ⟨0, _⟩ => rfl
    | ⟨1, _⟩ => rfl
  have hs1 : gather_S12x192x192_S2000000x2_S12x2000000_0_12_n_n_12_1_1211.siIdx (ix2 r N)
      ⟨List.idxOf (2 : Fin S12x192x192.rank) gather_S12x192x192_S2000000x2_S12x2000000_0_12_n_n_12_1_1211.startIndexMap,
        List.idxOf_lt_length_iff.2 (by decide)⟩ = ix2 N 1 := by
    funext b; refine Fin.ext ?_
    match b with
    | ⟨0, _⟩ => rfl
    | ⟨1, _⟩ => rfl
  match a with
  | ⟨0, _⟩ =>
    show gather_S12x192x192_S2000000x2_S12x2000000_0_12_n_n_12_1_1211.start (ix2 r N) idx 0
      + gather_S12x192x192_S2000000x2_S12x2000000_0_12_n_n_12_1_1211.batchCoord (ix2 r N) 0
      + gather_S12x192x192_S2000000x2_S12x2000000_0_12_n_n_12_1_1211.offCoord (ix2 r N) 0 = r.val
    rw [GatherDims.batchCoord_eq_zero _ _ _ List.not_mem_nil]
    unfold GatherDims.start GatherDims.offCoord
    rw [dif_neg (show ¬(0 : Fin S12x192x192.rank) ∈ gather_S12x192x192_S2000000x2_S12x2000000_0_12_n_n_12_1_1211.startIndexMap by decide),
      dif_pos (show (0 : Fin S12x192x192.rank) ∈ gather_S12x192x192_S2000000x2_S12x2000000_0_12_n_n_12_1_1211.sKept by decide)]
    show 0 + 0 + r.val = r.val
    omega
  | ⟨1, _⟩ =>
    show gather_S12x192x192_S2000000x2_S12x2000000_0_12_n_n_12_1_1211.start (ix2 r N) idx 1
      + gather_S12x192x192_S2000000x2_S12x2000000_0_12_n_n_12_1_1211.batchCoord (ix2 r N) 1
      + gather_S12x192x192_S2000000x2_S12x2000000_0_12_n_n_12_1_1211.offCoord (ix2 r N) 1 = gpos (idx (ix2 N 0))
    rw [GatherDims.batchCoord_eq_zero _ _ _ List.not_mem_nil,
      GatherDims.offCoord_eq_zero _ _ _ (by decide)]
    unfold GatherDims.start
    rw [dif_pos (show (1 : Fin S12x192x192.rank) ∈ gather_S12x192x192_S2000000x2_S12x2000000_0_12_n_n_12_1_1211.startIndexMap by decide), hs0]
    rfl
  | ⟨2, _⟩ =>
    show gather_S12x192x192_S2000000x2_S12x2000000_0_12_n_n_12_1_1211.start (ix2 r N) idx 2
      + gather_S12x192x192_S2000000x2_S12x2000000_0_12_n_n_12_1_1211.batchCoord (ix2 r N) 2
      + gather_S12x192x192_S2000000x2_S12x2000000_0_12_n_n_12_1_1211.offCoord (ix2 r N) 2 = gpos (idx (ix2 N 1))
    rw [GatherDims.batchCoord_eq_zero _ _ _ List.not_mem_nil,
      GatherDims.offCoord_eq_zero _ _ _ (by decide)]
    unfold GatherDims.start
    rw [dif_pos (show (2 : Fin S12x192x192.rank) ∈ gather_S12x192x192_S2000000x2_S12x2000000_0_12_n_n_12_1_1211.startIndexMap by decide), hs1]
    rfl

/-- A vector laid as a column reads the vector. -/
theorem colb {α : Type} (y : S2000000.Idx → α) (N : Fin 2000000) :
    broadcastInDim S2000000x1 ![0] bcast_S2000000_S2000000x1_0 y (ix2 N 0) = y (ix1 N) :=
  broadcastInDim_apply _ bcast_S2000000_S2000000x1_0 y (ix2 N 0) (ix1 N) (fun a => match a with
    | ⟨0, _⟩ => rfl)

/-- The table read at the two index vectors, at (r, N). -/
theorem gat_apply (P : FVec Ideal S12x192x192 .f32) (a b : IVec S2000000 32) (r : Fin 12) (N : Fin 2000000) :
    gat P a b (ix2 r N) = P (ix3 r ⟨gpos (wrap (a (ix1 N))), gpos_lt _⟩ ⟨gpos (wrap (b (ix1 N))), gpos_lt _⟩) := by
  unfold gat
  rw [gather_apply]
  have e0 : concatenate S2000000x2 1 [⟨S2000000x1, broadcastInDim S2000000x1 ![0] bcast_S2000000_S2000000x1_0 (wrapV a)⟩,
      ⟨S2000000x1, broadcastInDim S2000000x1 ![0] bcast_S2000000_S2000000x1_0 (wrapV b)⟩] concatenates_S2000000x1_S2000000x1_S2000000x2_d1 (ix2 N 0)
      = wrap (a (ix1 N)) :=
    (concatenate_pair_apply_left (1 : Fin S2000000x2.rank) _ _ concatenates_S2000000x1_S2000000x1_S2000000x2_d1 (ix2 N 0) rfl (ix2 N 0)
      (fun c => match c with | ⟨0, _⟩ => rfl | ⟨1, _⟩ => rfl)).trans ((colb _ N).trans rfl)
  have e1 : concatenate S2000000x2 1 [⟨S2000000x1, broadcastInDim S2000000x1 ![0] bcast_S2000000_S2000000x1_0 (wrapV a)⟩,
      ⟨S2000000x1, broadcastInDim S2000000x1 ![0] bcast_S2000000_S2000000x1_0 (wrapV b)⟩] concatenates_S2000000x1_S2000000x1_S2000000x2_d1 (ix2 N 1)
      = wrap (b (ix1 N)) :=
    (concatenate_pair_apply_right (1 : Fin S2000000x2.rank) _ _ concatenates_S2000000x1_S2000000x1_S2000000x2_d1 (ix2 N 1) rfl rfl (ix2 N 0)
      (fun c hc => match c with | ⟨0, _⟩ => rfl | ⟨1, _⟩ => absurd rfl hc) rfl).trans ((colb _ N).trans rfl)
  refine congrArg P (funext fun c => Fin.ext ?_)
  match c with
  | ⟨0, _⟩ => rfl
  | ⟨1, _⟩ => show gpos _ = gpos _; rw [e0]
  | ⟨2, _⟩ => show gpos _ = gpos _; rw [e1]

/-- A per-point value repeated for the ranks reads the point's value. -/
theorem rb_apply (y : FVec Ideal S2000000 .f32) (r : Fin 12) (N : Fin 2000000) : rb y (ix2 r N) = y (ix1 N) := by
  unfold rb
  refine (broadcastInDim_apply _ bcast_S1x2000000_S12x2000000_0_1 _ (ix2 r N) (ix2 0 N) (fun a => match a with
    | ⟨0, _⟩ => rfl
    | ⟨1, _⟩ => rfl)).trans ?_
  exact broadcastInDim_apply _ bcast_S2000000_S1x2000000_1 y (ix2 0 N) (ix1 N) (fun a => match a with
    | ⟨0, _⟩ => rfl)

/-- ENTRY (N, r) OF THE SAMPLE: the corner form, over the scalars of point N. -/
theorem samplePlane_apply (P : FVec Ideal S12x192x192 .f32) (U V : FVec Ideal S2000000 .f32) (N : Fin 2000000) (r : Fin 12) :
    samplePlane P U V (ix2 N r)
      = (P (ix3 r ⟨gpos (wrap (j0 (V (ix1 N)))), gpos_lt _⟩ ⟨gpos (wrap (j0 (U (ix1 N)))), gpos_lt _⟩) * (Ideal.ofBits .f32 0x3F800000#32 - frR (U (ix1 N)))
          + P (ix3 r ⟨gpos (wrap (j0 (V (ix1 N)))), gpos_lt _⟩ ⟨gpos (wrap (j1 (U (ix1 N)))), gpos_lt _⟩) * frR (U (ix1 N)))
          * (Ideal.ofBits .f32 0x3F800000#32 - frR (V (ix1 N)))
        + (P (ix3 r ⟨gpos (wrap (j1 (V (ix1 N)))), gpos_lt _⟩ ⟨gpos (wrap (j0 (U (ix1 N)))), gpos_lt _⟩) * (Ideal.ofBits .f32 0x3F800000#32 - frR (U (ix1 N)))
          + P (ix3 r ⟨gpos (wrap (j1 (V (ix1 N)))), gpos_lt _⟩ ⟨gpos (wrap (j1 (U (ix1 N)))), gpos_lt _⟩) * frR (U (ix1 N)))
          * frR (V (ix1 N)) := by
  unfold samplePlane
  refine (transpose_apply [1, 0] _ transposes_S12x2000000_S2000000x12_1_0 (ix2 N r) (ix2 r N) (fun b => match b with
    | ⟨0, _⟩ => rfl
    | ⟨1, _⟩ => rfl)).trans ?_
  simp only [addf_apply, mulf_apply, gat_apply, rb_apply]
  rfl

/-! ## The corner form is the bilinear sample, for real coordinates and real table entries -/

theorem plane_corner (P : FVec Ideal S12x192x192 .f32) (hP : ∀ j, ∃ y : ℝ, P j = (y : EReal)) (cu cv : EReal)
    (hu : ∃ x : ℝ, cu = (x : EReal)) (hv : ∃ x : ℝ, cv = (x : EReal)) (r : Fin 12) :
    (P (ix3 r ⟨gpos (wrap (j0 cv)), gpos_lt _⟩ ⟨gpos (wrap (j0 cu)), gpos_lt _⟩) * (Ideal.ofBits .f32 0x3F800000#32 - frR cu)
          + P (ix3 r ⟨gpos (wrap (j0 cv)), gpos_lt _⟩ ⟨gpos (wrap (j1 cu)), gpos_lt _⟩) * frR cu)
          * (Ideal.ofBits .f32 0x3F800000#32 - frR cv)
        + (P (ix3 r ⟨gpos (wrap (j1 cv)), gpos_lt _⟩ ⟨gpos (wrap (j0 cu)), gpos_lt _⟩) * (Ideal.ofBits .f32 0x3F800000#32 - frR cu)
          + P (ix3 r ⟨gpos (wrap (j1 cv)), gpos_lt _⟩ ⟨gpos (wrap (j1 cu)), gpos_lt _⟩) * frR cu)
          * frR cv
      = ((corners (planeR P r) cv.toReal cu.toReal : ℝ) : EReal) := by
  obtain ⟨xu, rfl⟩ := hu
  obtain ⟨xv, rfl⟩ := hv
  rw [EReal.toReal_coe, EReal.toReal_coe]
  have hc : ∀ (a b : ℕ) (ha : a < 192) (hb : b < 192),
      P (ix3 r ⟨a, ha⟩ ⟨b, hb⟩) = P (ix3 r ⟨min a 191, by omega⟩ ⟨min b 191, by omega⟩) := by
    intro a b ha hb
    have e1 : min a 191 = a := by omega
    have e2 : min b 191 = b := by omega
    simp only [e1, e2]
  rw [hc _ _ (gpos_lt _) (gpos_lt _), hc _ _ (gpos_lt (wrap (j0 (xv : EReal)))) (gpos_lt (wrap (j1 (xu : EReal)))),
    hc _ _ (gpos_lt (wrap (j1 (xv : EReal)))) (gpos_lt (wrap (j0 (xu : EReal)))),
    hc _ _ (gpos_lt (wrap (j1 (xv : EReal)))) (gpos_lt (wrap (j1 (xu : EReal))))]
  exact corner_eq xv xu (planeR P r) (fun a b => P (ix3 r ⟨min a 191, by omega⟩ ⟨min b 191, by omega⟩))
    (fun a b => ((hc a.val b.val a.isLt b.isLt).symm).trans (coe_toReal_of_real (hP (ix3 r a b))).symm)

end Cert.ReferenceIdeal.RVal

end
-- ==== Proof.RVal.lean ====
/-
  The reference program read at an entry (N, o) of its result.

  The reference's three samples are instances of `samplePlane` (RSample) at the columns of the coordinate array — (x, y) for
  the first table, (x, z) for the second, (y, z) for the third, lanes first —, by unfolding the program's operations. Laid side
  by side they are the 36 features of every point, and the result is their product with the transposed weights: the function
  `G` (GSpec) of the arguments, when every coordinate and table entry is a real number.
-/
import proofs.«115399_j36945308680677_1_alg».proof.Proof.RefStages
import proofs.«115399_j36945308680677_1_alg».proof.Proof.RSample

set_option maxRecDepth 16384

noncomputable section

namespace Cert.ReferenceIdeal.RVal

open Cert.ReferenceIdeal Cert.ReferenceIdeal.Gen Cert.ReferenceIdeal.Read
open Idealize.ShloMosaic Idealize.ShloMosaic.TcCoe Idealize.ShloMosaic.ValueIdx Idealize.SL.Sem
open Cert.Bilerp

/-! ## The program's three samples, its coordinate columns, its result -/

theorem v111_eq (x0 : FVec Ideal S2000000x3 .f32) (x1 : FVec Ideal S12x192x192 .f32) :
    val_main_v111 (F := Ideal) x0 x1 = samplePlane x1 (val_main_v1 (F := Ideal) x0) (val_main_v3 (F := Ideal) x0) := rfl
theorem v217_eq (x0 : FVec Ideal S2000000x3 .f32) (x2 : FVec Ideal S12x192x192 .f32) :
    val_main_v217 (F := Ideal) x0 x2 = samplePlane x2 (val_main_v1 (F := Ideal) x0) (val_main_v5 (F := Ideal) x0) := rfl
theorem v323_eq (x0 : FVec Ideal S2000000x3 .f32) (x3 : FVec Ideal S12x192x192 .f32) :
    val_main_v323 (F := Ideal) x0 x3 = samplePlane x3 (val_main_v3 (F := Ideal) x0) (val_main_v5 (F := Ideal) x0) := rfl

/-- The three coordinate vectors are the three columns of the coordinate array. -/
theorem columns (x0 : FVec Ideal S2000000x3 .f32) (N : Fin 2000000) :
    val_main_v1 (F := Ideal) x0 (ix1 N) = x0 (ix2 N 0) ∧ val_main_v3 (F := Ideal) x0 (ix1 N) = x0 (ix2 N 1)
      ∧ val_main_v5 (F := Ideal) x0 (ix1 N) = x0 (ix2 N 2) := by
  refine ⟨?_, ?_, ?_⟩
  · refine (val_main_v1_apply (F := Ideal) x0 (ix1 N)).trans ((val_main_v0_apply (F := Ideal) x0 (idx_main_v1 (ix1 N))).trans (congrArg x0 (funext fun a => Fin.ext ?_)))
    match a with
    | ⟨0, _⟩ => exact Nat.div_one _
    | ⟨1, _⟩ => rfl
  · refine (val_main_v3_apply (F := Ideal) x0 (ix1 N)).trans ((val_main_v2_apply (F := Ideal) x0 (idx_main_v3 (ix1 N))).trans (congrArg x0 (funext fun a => Fin.ext ?_)))
    match a with
    | ⟨0, _⟩ => exact Nat.div_one _
    | ⟨1, _⟩ => rfl
  · refine (val_main_v5_apply (F := Ideal) x0 (ix1 N)).trans ((val_main_v4_apply (F := Ideal) x0 (idx_main_v5 (ix1 N))).trans (congrArg x0 (funext fun a => Fin.ext ?_)))
    match a with
    | ⟨0, _⟩ => exact Nat.div_one _
    | ⟨1, _⟩ => rfl

/-- Feature k of point N, as the reference computes it. -/
theorem ref_feat (x0 : FVec Ideal S2000000x3 .f32) (x1 x2 x3 : FVec Ideal S12x192x192 .f32)
    (h0 : ∀ j, ∃ x : ℝ, x0 j = (x : EReal)) (hP : ∀ (p : Fin 3) j, ∃ y : ℝ, (![x1, x2, x3] p) j = (y : EReal))
    (N : Fin 2000000) (k : Fin 36) :
    val_main_v324 (F := Ideal) x0 x1 x2 x3 (ix2 N k) = feat x0 ![x1, x2, x3] N k := by
  obtain ⟨c0, c1, c2⟩ := columns x0 N
  unfold val_main_v324
  refine (concatenate_ofFn_apply (a := (1 : Fin S2000000x36.rank))
    (fun p : Fin 3 => ![val_main_v111 (F := Ideal) x0 x1, val_main_v217 (F := Ideal) x0 x2, val_main_v323 (F := Ideal) x0 x3] p) _ rfl 12 rfl
    (ix2 N k) (kp k) rfl (ix2 N (kr k)) rfl (fun b hb => match b with
      | ⟨0, _⟩ => rfl
      | ⟨1, _⟩ => absurd rfl hb)).trans ?_
  unfold feat
  generalize kr k = r
  generalize kp k = p
  match p with
  | ⟨0, _⟩ =>
    show val_main_v111 (F := Ideal) x0 x1 (ix2 N r) = _
    rw [v111_eq, samplePlane_apply, c0, c1]
    exact plane_corner x1 (hP 0) _ _ (h0 _) (h0 _) r
  | ⟨1, _⟩ =>
    show val_main_v217 (F := Ideal) x0 x2 (ix2 N r) = _
    rw [v217_eq, samplePlane_apply, c0, c2]
    exact plane_corner x2 (hP 1) _ _ (h0 _) (h0 _) r
  | ⟨2, _⟩ =>
    show val_main_v323 (F := Ideal) x0 x3 (ix2 N r) = _
    rw [v323_eq, samplePlane_apply, c1, c2]
    exact plane_corner x3 (hP 2) _ _ (h0 _) (h0 _) r

/-- THE REFERENCE'S RESULT is `G` of its arguments, when every coordinate and table entry is a real number. -/
theorem ref_eq (x0 : FVec Ideal S2000000x3 .f32) (x1 x2 x3 : FVec Ideal S12x192x192 .f32) (x4 : FVec Ideal S32x36 .f32)
    (h0 : ∀ j, ∃ x : ℝ, x0 j = (x : EReal)) (hP : ∀ (p : Fin 3) j, ∃ y : ℝ, (![x1, x2, x3] p) j = (y : EReal)) :
    val_main_v326 (F := Ideal) x0 x1 x2 x3 x4 = G x0 x1 x2 x3 x4 := by
  funext i
  obtain ⟨N, o, rfl⟩ : ∃ (N : Fin 2000000) (o : Fin 32), i = ix2 N o := ⟨i 0, i 1, eq_ix2 i⟩
  rw [val_main_v326_apply]
  unfold G
  refine Finset.sum_congr rfl fun (k : Fin 36) _ => ?_
  have el : lidx_main_v326 (ix2 N o) k = ix2 N k := funext fun a => Fin.ext (match a with | ⟨0, _⟩ => rfl | ⟨1, _⟩ => rfl)
  have er : idx_main_v325 (ridx_main_v326 (ix2 N o) k) = ix2 o k := funext fun a => Fin.ext (match a with | ⟨0, _⟩ => rfl | ⟨1, _⟩ => rfl)
  rw [el, val_main_v325_apply, er, ref_feat x0 x1 x2 x3 h0 hP N k]

end Cert.ReferenceIdeal.RVal

end
-- ==== Proof.LibFoldSplit.lean ====
/-
  The fold of a line of host operations over buffer contents, split at a position: running the whole line from
  contents `V` is running its first `k` operations from `V` and the rest from what they leave. A long line can then be
  read back stretch by stretch, each stretch from NAMED contents, instead of in one pass.
-/
import Idealize.ShloMosaic.Lib.StableHlo.Run

noncomputable section

namespace Idealize.ShloMosaic.StableHlo.FoldSplit

open Idealize.ShloMosaic Idealize.ShloMosaic.StableHlo

variable {τ : Topo} {sig : RefSig} {Val : EltTy → Type}

/-- Two lines run one after the other are their concatenation run as one, on the contents as on the program. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line split at position `k`. -/
theorem after_split (k : Nat) (l : List (HloOp τ sig Val)) (V : Valuation τ sig Val) :
    after l V = after (l.drop k) (after (l.take k) V) := by
  rw [← after_append, List.take_append_drop]

end Idealize.ShloMosaic.StableHlo.FoldSplit

end
-- ==== Proof.RWin.lean ====
/-
  The reference's line of 444 host operations cut into five stretches, and each stretch read back from arbitrary contents.

  The line is: 6 operations that take the three coordinate columns out of the coordinate array; three stretches of 145
  operations, one per table, each computing that table's sample from the table and two of the columns; and 3 operations that
  lay the three samples side by side, transpose the weights and multiply. Each table's stretch, run from ANY contents W,
  leaves `samplePlane` (RSample) of W's table and W's two columns in its result buffer, and leaves every buffer it does not
  write as it was; so the stretches compose without the contents ever being spelt out.
-/
import proofs.«115399_j36945308680677_1_alg».proof.Proof.RefOps
import proofs.«115399_j36945308680677_1_alg».proof.Proof.RefStages
import proofs.«115399_j36945308680677_1_alg».proof.Proof.RSample
import proofs.«115399_j36945308680677_1_alg».proof.Proof.LibFoldSplit
import Idealize.ShloMosaic.Lib.StableHlo.Run

set_option maxRecDepth 16384

noncomputable section

namespace Cert.ReferenceIdeal.RWin

open Cert.ReferenceIdeal Cert.ReferenceIdeal.Gen Cert.ReferenceIdeal.Value Cert.ReferenceIdeal.Read Cert.ReferenceIdeal.RVal
open Idealize.ShloMosaic Idealize.ShloMosaic.TcCoe Idealize.SL.Sem Idealize.ShloMosaic.StableHlo
open Idealize.ShloMosaic.StableHlo.FoldSplit

abbrev Ops := List (HloOp τ sig (Elt Ideal))

/-- The five stretches. -/
abbrev w0 : Ops := (ops (F := Ideal)).take 6
abbrev w1 : Ops := ((ops (F := Ideal)).drop 6).take 145
abbrev w2 : Ops := (((ops (F := Ideal)).drop 6).drop 145).take 145
abbrev w3 : Ops := ((((ops (F := Ideal)).drop 6).drop 145).drop 145).take 145
abbrev w4 : Ops := ((((ops (F := Ideal)).drop 6).drop 145).drop 145).drop 145

/-- The line run from contents V is its stretches run one after the other. -/
theorem split (V : Valuation τ sig (Elt Ideal)) :
    after (ops (F := Ideal)) V = after w4 (after w3 (after w2 (after w1 (after w0 V)))) := by
  rw [after_split 6 (ops (F := Ideal)) V, after_split 145 ((ops (F := Ideal)).drop 6) _,
    after_split 145 (((ops (F := Ideal)).drop 6).drop 145) _, after_split 145 ((((ops (F := Ideal)).drop 6).drop 145).drop 145) _]

/-- The first stretch leaves the three columns of the coordinate array. -/
theorem pre (W : Valuation τ sig (Elt Ideal)) :
    after w0 W (Proc.devRef .tc main_v1) = val_main_v1 (F := Ideal) (W (Proc.devRef .tc main_arg0))
      ∧ after w0 W (Proc.devRef .tc main_v3) = val_main_v3 (F := Ideal) (W (Proc.devRef .tc main_arg0))
      ∧ after w0 W (Proc.devRef .tc main_v5) = val_main_v5 (F := Ideal) (W (Proc.devRef .tc main_arg0))
      ∧ after w0 W (Proc.devRef .tc main_arg0) = W (Proc.devRef .tc main_arg0)
      ∧ after w0 W (Proc.devRef .tc main_arg1) = W (Proc.devRef .tc main_arg1)
      ∧ after w0 W (Proc.devRef .tc main_arg2) = W (Proc.devRef .tc main_arg2)
      ∧ after w0 W (Proc.devRef .tc main_arg3) = W (Proc.devRef .tc main_arg3)
      ∧ after w0 W (Proc.devRef .tc main_arg4) = W (Proc.devRef .tc main_arg4) := by
  obtain ⟨L, hL⟩ : ∃ L : Ops, L = w0 := ⟨_, rfl⟩
  rw [← hL]
  simp only [w0, ops, List.drop_succ_cons, List.drop_zero, List.take_succ_cons, List.take_zero] at hL
  subst hL
  refine ⟨?_, ?_, ?_, ?_, ?_, ?_, ?_, ?_⟩ <;> (after_results_simp <;> rfl)

set_option maxHeartbeats 0 in
/-- The first table's stretch: lanes from the first column, rows from the second. -/
theorem plane1 (W : Valuation τ sig (Elt Ideal)) :
    after w1 W (Proc.devRef .tc main_v111) = samplePlane (W (Proc.devRef .tc main_arg1)) (W (Proc.devRef .tc main_v1)) (W (Proc.devRef .tc main_v3))
      ∧ after w1 W (Proc.devRef .tc main_v1) = W (Proc.devRef .tc main_v1)
      ∧ after w1 W (Proc.devRef .tc main_v3) = W (Proc.devRef .tc main_v3)
      ∧ after w1 W (Proc.devRef .tc main_v5) = W (Proc.devRef .tc main_v5)
      ∧ after w1 W (Proc.devRef .tc main_arg0) = W (Proc.devRef .tc main_arg0)
      ∧ after w1 W (Proc.devRef .tc main_arg1) = W (Proc.devRef .tc main_arg1)
      ∧ after w1 W (Proc.devRef .tc main_arg2) = W (Proc.devRef .tc main_arg2)
      ∧ after w1 W (Proc.devRef .tc main_arg3) = W (Proc.devRef .tc main_arg3)
      ∧ after w1 W (Proc.devRef .tc main_arg4) = W (Proc.devRef .tc main_arg4) := by
  obtain ⟨L, hL⟩ : ∃ L : Ops, L = w1 := ⟨_, rfl⟩
  rw [← hL]
  simp only [w1, ops, List.drop_succ_cons, List.drop_zero, List.take_succ_cons, List.take_zero] at hL
  subst hL
  refine ⟨?_, ?_, ?_, ?_, ?_, ?_, ?_, ?_, ?_⟩ <;> (after_results_simp <;> rfl)

set_option maxHeartbeats 0 in
/-- The second table's stretch: lanes from the first column, rows from the third. -/
theorem plane2 (W : Valuation τ sig (Elt Ideal)) :
    after w2 W (Proc.devRef .tc main_v217) = samplePlane (W (Proc.devRef .tc main_arg2)) (W (Proc.devRef .tc main_v1)) (W (Proc.devRef .tc main_v5))
      ∧ after w2 W (Proc.devRef .tc main_v111) = W (Proc.devRef .tc main_v111)
      ∧ after w2 W (Proc.devRef .tc main_v3) = W (Proc.devRef .tc main_v3)
      ∧ after w2 W (Proc.devRef .tc main_v5) = W (Proc.devRef .tc main_v5)
      ∧ after w2 W (Proc.devRef .tc main_arg0) = W (Proc.devRef .tc main_arg0)
      ∧ after w2 W (Proc.devRef .tc main_arg1) = W (Proc.devRef .tc main_arg1)
      ∧ after w2 W (Proc.devRef .tc main_arg2) = W (Proc.devRef .tc main_arg2)
      ∧ after w2 W (Proc.devRef .tc main_arg3) = W (Proc.devRef .tc main_arg3)
      ∧ after w2 W (Proc.devRef .tc main_arg4) = W (Proc.devRef .tc main_arg4) := by
  obtain ⟨L, hL⟩ : ∃ L : Ops, L = w2 := ⟨_, rfl⟩
  rw [← hL]
  simp only [w2, ops, List.drop_succ_cons, List.drop_zero, List.take_succ_cons, List.take_zero] at hL
  subst hL
  refine ⟨?_, ?_, ?_, ?_, ?_, ?_, ?_, ?_, ?_⟩ <;> (after_results_simp <;> rfl)

set_option maxHeartbeats 0 in
/-- The third table's stretch: lanes from the second column, rows from the third. -/
theorem plane3 (W : Valuation τ sig (Elt Ideal)) :
    after w3 W (Proc.devRef .tc main_v323) = samplePlane (W (Proc.devRef .tc main_arg3)) (W (Proc.devRef .tc main_v3)) (W (Proc.devRef .tc main_v5))
      ∧ after w3 W (Proc.devRef .tc main_v111) = W (Proc.devRef .tc main_v111)
      ∧ after w3 W (Proc.devRef .tc main_v217) = W (Proc.devRef .tc main_v217)
      ∧ after w3 W (Proc.devRef .tc main_arg0) = W (Proc.devRef .tc main_arg0)
      ∧ after w3 W (Proc.devRef .tc main_arg1) = W (Proc.devRef .tc main_arg1)
      ∧ after w3 W (Proc.devRef .tc main_arg2) = W (Proc.devRef .tc main_arg2)
      ∧ after w3 W (Proc.devRef .tc main_arg3) = W (Proc.devRef .tc main_arg3)
      ∧ after w3 W (Proc.devRef .tc main_arg4) = W (Proc.devRef .tc main_arg4) := by
  obtain ⟨L, hL⟩ : ∃ L : Ops, L = w3 := ⟨_, rfl⟩
  rw [← hL]
  simp only [w3, ops, List.drop_succ_cons, List.drop_zero, List.take_succ_cons, List.take_zero] at hL
  subst hL
  refine ⟨?_, ?_, ?_, ?_, ?_, ?_, ?_, ?_⟩ <;> (after_results_simp <;> rfl)

/-- Three samples side by side, times the transposed weights. -/
def tailFn (a b c : FVec Ideal S2000000x12 .f32) (w : FVec Ideal S32x36 .f32) : FVec Ideal S2000000x32 .f32 :=
  Host.dotGeneral (F := Ideal) dot_S2000000x36_S36x32_S2000000x32_1_0_0_1_n_n none
    (concatenate S2000000x36 1 [⟨S2000000x12, a⟩, ⟨S2000000x12, b⟩, ⟨S2000000x12, c⟩]
      concatenates_S2000000x12_S2000000x12_S2000000x12_S2000000x36_d1)
    (transpose S36x32 [1, 0] w transposes_S32x36_S36x32_1_0)

/-- The last stretch: the three samples side by side, times the transposed weights. -/
theorem tail (W : Valuation τ sig (Elt Ideal)) :
    after w4 W (Proc.devRef .tc main_v326)
        = tailFn (W (Proc.devRef .tc main_v111)) (W (Proc.devRef .tc main_v217)) (W (Proc.devRef .tc main_v323)) (W (Proc.devRef .tc main_arg4))
      ∧ after w4 W (Proc.devRef .tc main_arg0) = W (Proc.devRef .tc main_arg0)
      ∧ after w4 W (Proc.devRef .tc main_arg1) = W (Proc.devRef .tc main_arg1)
      ∧ after w4 W (Proc.devRef .tc main_arg2) = W (Proc.devRef .tc main_arg2)
      ∧ after w4 W (Proc.devRef .tc main_arg3) = W (Proc.devRef .tc main_arg3)
      ∧ after w4 W (Proc.devRef .tc main_arg4) = W (Proc.devRef .tc main_arg4) := by
  obtain ⟨L, hL⟩ : ∃ L : Ops, L = w4 := ⟨_, rfl⟩
  rw [← hL]
  simp only [w4, ops, List.drop_succ_cons, List.drop_zero, List.take_succ_cons, List.take_zero] at hL
  subst hL
  refine ⟨?_, ?_, ?_, ?_, ?_, ?_⟩ <;> (after_results_simp <;> rfl)

end Cert.ReferenceIdeal.RWin

end
-- ==== Proof.RRun.lean ====
/-
  The reference's run: its result buffer ends at the operations' composed term of the arguments, the arguments unchanged.

  The line of host operations is read back stretch by stretch (RWin): the first stretch leaves the three coordinate columns, each
  table's stretch leaves that table's sample of its two columns and keeps what the later stretches read, and the last stretch
  multiplies the three samples, side by side, by the transposed weights. Put together that is the program's last stage
  `val_main_v326` of the five argument arrays.
-/
import proofs.«115399_j36945308680677_1_alg».proof.Proof.RWin
import proofs.«115399_j36945308680677_1_alg».proof.Proof.RVal

set_option maxRecDepth 16384

noncomputable section

namespace Cert.ReferenceIdeal.RRun

open Cert.ReferenceIdeal Cert.ReferenceIdeal.Gen Cert.ReferenceIdeal.Value Cert.ReferenceIdeal.Read Cert.ReferenceIdeal.RVal
open Cert.ReferenceIdeal.RWin
open Idealize.ShloMosaic Idealize.ShloMosaic.TcCoe Idealize.SL.Sem Idealize.ShloMosaic.StableHlo

/-- The whole line, from any contents: the result buffer at the last stage of the arguments, each argument as it was. -/
theorem result_eq (V : Valuation τ sig (Elt Ideal)) :
    after (ops (F := Ideal)) V (Proc.devRef .tc main_v326)
        = val_main_v326 (F := Ideal) (V (Proc.devRef .tc main_arg0)) (V (Proc.devRef .tc main_arg1)) (V (Proc.devRef .tc main_arg2)) (V (Proc.devRef .tc main_arg3)) (V (Proc.devRef .tc main_arg4))
      ∧ after (ops (F := Ideal)) V (Proc.devRef .tc main_arg0) = V (Proc.devRef .tc main_arg0)
      ∧ after (ops (F := Ideal)) V (Proc.devRef .tc main_arg1) = V (Proc.devRef .tc main_arg1)
      ∧ after (ops (F := Ideal)) V (Proc.devRef .tc main_arg2) = V (Proc.devRef .tc main_arg2)
      ∧ after (ops (F := Ideal)) V (Proc.devRef .tc main_arg3) = V (Proc.devRef .tc main_arg3)
      ∧ after (ops (F := Ideal)) V (Proc.devRef .tc main_arg4) = V (Proc.devRef .tc main_arg4) := by
  rw [split V]
  obtain ⟨p1, p3, p5, a0, a1, a2, a3, a4⟩ := pre V
  generalize after w0 V = V0 at *
  obtain ⟨q111, q1, q3, q5, b0, b1, b2, b3, b4⟩ := plane1 V0
  generalize after w1 V0 = V1 at *
  obtain ⟨r217, r111, r3, r5, c0, c1, c2, c3, c4⟩ := plane2 V1
  generalize after w2 V1 = V2 at *
  obtain ⟨s323, s111, s217, d0, d1, d2, d3, d4⟩ := plane3 V2
  generalize after w3 V2 = V3 at *
  obtain ⟨t326, e0, e1, e2, e3, e4⟩ := tail V3
  refine ⟨?_, ?_, ?_, ?_, ?_, ?_⟩
  · rw [t326, s111, s217, s323, r111, r217, q111, r3, r5, q1, q3, q5, p1, p3, p5,
      d4, c3, c4, b2, b3, b4, a1, a2, a3, a4,
      ← v111_eq, ← v217_eq, ← v323_eq]
    rfl
  · rw [e0, d0, c0, b0, a0]
  · rw [e1, d1, c1, b1, a1]
  · rw [e2, d2, c2, b2, a2]
  · rw [e3, d3, c3, b3, a3]
  · rw [e4, d4, c4, b4, a4]

/-- The run of the reference: every weakly fair execution terminates, the result at the last stage of the arguments,
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v326)
          = val_main_v326 (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
      obtain ⟨e, k0, k1, k2, k3, k4⟩ := result_eq (launchContents m c)
      exact ⟨(h c main_v326).trans e, (h c main_arg0).trans k0, (h c main_arg1).trans k1, (h c main_arg2).trans k2,
        (h c main_arg3).trans k3, (h c main_arg4).trans k4⟩)
    (run_seq scopedRefs_eq scopedSems_eq defs main (fun _ => ops) main_eq (fun _ => ops_sub) m ρ)

end Cert.ReferenceIdeal.RRun

end
-- ==== Proof.LibFiniteAll.lean ====
/-
  Reading back one conjunct of the precondition. Each conjunct is a reduction by `and`, over a whole array, of an
  entrywise comparison: `|x| < +inf` (every entry of x is finite) or `v ≥ 0`. A reduction by `and` from 1 that
  comes out 1 met only 1s, so the comparison holds at every index. On the extended reals `|x| = max x (-x)`, and
  `max x (-x) < ⊤` excludes both infinities, so x is a real number.
-/
import Idealize.ShloMosaic.PureOps.Ideal
import Idealize.ShloMosaic.PureOps.Ideal.Laws
import Idealize.ShloMosaic.Lib.ValueIdx
import Idealize.ShloMosaic.Lib.ReduceAll
import Idealize.ShloMosaic.PureOps

noncomputable section

namespace Cert.LibFiniteAll

open Idealize.ShloMosaic

/-- The rank-0 shape has one index. -/
theorem subsingleton_idx0 : Subsingleton (⟨0, ![]⟩ : Shape).Idx := ⟨fun a b => funext fun d => d.elim0⟩

/-- The f32 word of +infinity denotes the top extended real. -/
theorem ofBits_inf : Ideal.ofBits .f32 0x7F800000#32 = (⊤ : EReal) := by simp [Ideal.ofBits, Ideal.ieee]

/-- An extended real whose absolute value max x (-x) is below +infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A comparison word that is 1 says the comparison holds. -/
theorem ofBool_eq_one (b : Bool) : BitVec.ofBool b = 1#1 ↔ b = true := by cases b <;> decide

/-- Entry read-back of |x| < +inf. -/
theorem real_of_cmp (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  exact real_of_abs_lt_top x (of_decide_eq_true h)

/-- Entry read-back of v ≥ 0. -/
theorem nonneg_of_cmp (v : EReal)
    (h : Ideal.cmp .oge v (Ideal.ofBits .f32 0x00000000#32) = 1#1) : 0 ≤ v := by
  rw [Ideal.ofBits_zero_f32] at h
  unfold Ideal.cmp at h
  rw [ofBool_eq_one] at h
  exact of_decide_eq_true h

variable {s : Shape} {axes : List (Fin s.rank)}

/-- all(|x| < +inf) = 1 over an array of any shape: every entry is a real number. -/
theorem real_of_all (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, x i = (r : EReal) := by
  haveI := subsingleton_idx0
  have h := Host.reduce_andi_all _ _ hr hu _ e i
  exact real_of_cmp (x i) h

/-- all(v ≥ 0) = 1: every entry is nonnegative. -/
theorem nonneg_of_all (v : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .oge v (broadcastInDim s ![] hb (constant (F := Ideal) (⟨0, ![]⟩ : Shape) .f32 0x00000000#32)))
          (constantI (⟨0, ![]⟩ : Shape) 1 1#1) hr hu ValueIdx.ix0 = 1#1)
    (i : s.Idx) : (0 : EReal) ≤ v i := by
  haveI := subsingleton_idx0
  have h := Host.reduce_andi_all _ _ hr hu _ e i
  exact nonneg_of_cmp (v i) h

end Cert.LibFiniteAll

end
-- ==== Proof.Finite.lean ====
/-
  What the precondition says of the arguments. The precondition is the conjunction, over the five argument arrays, of
  "every entry has a finite absolute value"; of the coordinate array and of the three tables this gives that every entry
  is a real number, which is what the two ways of sampling need to agree (distributivity fails at the infinities).
-/
import proofs.«115399_j36945308680677_1_alg».proof.Pre_finite_inputs
import proofs.«115399_j36945308680677_1_alg».proof.Proof.LibFiniteAll
import Idealize.ShloMosaic.Lib.Affine

noncomputable section

namespace Cert.Finite

open Idealize.ShloMosaic Cert.Pre_finite_inputs

theorem reals_of_pre [Cert.Pre_finite_inputs.Facts] (a0 : FVec Ideal S2000000x3 .f32) (a1 a2 a3 : FVec Ideal S12x192x192 .f32)
    (a4 : FVec Ideal S32x36 .f32) (h : Cert.Pre_finite_inputs.fn (F := Ideal) a0 a1 a2 a3 a4 = fun _ => 1#1) :
    (∀ j, ∃ x : ℝ, a0 j = (x : EReal)) ∧ (∀ j, ∃ y : ℝ, a1 j = (y : EReal)) ∧ (∀ j, ∃ y : ℝ, a2 j = (y : EReal))
      ∧ (∀ j, ∃ y : ℝ, a3 j = (y : EReal)) := by
  have h0 := congrFun h ValueIdx.ix0
  dsimp only [Cert.Pre_finite_inputs.fn, Cert.Pre_finite_inputs.fn_part1] at h0
  obtain ⟨h0123, -⟩ := IntOp.andi_eq_one.mp h0
  obtain ⟨h012, e3⟩ := IntOp.andi_eq_one.mp h0123
  obtain ⟨h01, e2⟩ := IntOp.andi_eq_one.mp h012
  obtain ⟨e0, e1⟩ := IntOp.andi_eq_one.mp h01
  exact ⟨Cert.LibFiniteAll.real_of_all a0 _ _ _ e0, Cert.LibFiniteAll.real_of_all a1 _ _ _ e1,
    Cert.LibFiniteAll.real_of_all a2 _ _ _ e2, Cert.LibFiniteAll.real_of_all a3 _ _ _ e3⟩

end Cert.Finite

end
-- ==== Proof.lean ====
/-
  Three bilinear table samples and a projection, computed two ways, give the same array on the extended reals.

  For each of 2,000,000 points (x, y, z) and each of three 12 × 192 × 192 tables the programs sample the 12 ranks of the
  table bilinearly at two of the point's coordinates — scaled by 191, clamped to [0, 191], split into a cell and a weight —
  and multiply the 36 samples by a 32 × 36 weight matrix. The kernel selects: it builds, per point, a row-selection and a
  lane-selection vector holding the two weights at the cell and the next cell, contracts the row selection with the rank's
  matrix (a matrix product on the matrix unit), weights by the lane selection and sums over the lanes. The reference
  gathers the four corners and interpolates. For real coordinates and real table entries — which the precondition gives —
  both are the bilinear sample (Spec: `bilinear_law`), so both programs end at the function `G` (GSpec) of their arguments:
  the kernel block by block (KVal, KPay, KRun), the reference stretch by stretch of its line of operations (RWin, RRun)
  and operation by operation (RSample, RVal).
  A change of number format is the identity on the extended reals, and no constant of either program is renamed, so the
  idealized kernel is the kernel's own text and that conjunct is `True`.
-/
import proofs.«115399_j36945308680677_1_alg».proof.Defs
import proofs.«115399_j36945308680677_1_alg».proof.Proof.Gen.Kernel
import proofs.«115399_j36945308680677_1_alg».proof.Proof.Gen.Kernel.Skeleton
import proofs.«115399_j36945308680677_1_alg».proof.Proof.Gen.Kernel.Launch
import proofs.«115399_j36945308680677_1_alg».proof.Proof.Gen.Kernel.Points
import proofs.«115399_j36945308680677_1_alg».proof.Proof.Gen.Kernel.Frame
import proofs.«115399_j36945308680677_1_alg».proof.Proof.Gen.KernelIdeal
import proofs.«115399_j36945308680677_1_alg».proof.Proof.Gen.KernelIdeal.Skeleton
import proofs.«115399_j36945308680677_1_alg».proof.Proof.Gen.KernelIdeal.Launch
import proofs.«115399_j36945308680677_1_alg».proof.Proof.Gen.KernelIdeal.Points
import proofs.«115399_j36945308680677_1_alg».proof.Proof.Gen.KernelIdeal.Frame
import proofs.«115399_j36945308680677_1_alg».proof.Proof.Gen.ReferenceIdeal
import proofs.«115399_j36945308680677_1_alg».proof.Proof.Gen.Pre_finite_inputs
import proofs.«115399_j36945308680677_1_alg».proof.Proof.Gen.KernelIdeal.Value
import proofs.«115399_j36945308680677_1_alg».proof.Proof.KRun
import proofs.«115399_j36945308680677_1_alg».proof.Proof.RVal
import proofs.«115399_j36945308680677_1_alg».proof.Proof.RRun
import proofs.«115399_j36945308680677_1_alg».proof.Proof.Finite
import Idealize.ShloMosaic.Adequacy
import Idealize.ShloMosaic.Init

noncomputable section

namespace Cert.Proof

open Idealize.ShloMosaic Idealize.SL.Sem Cert.Bilerp

/-- The three programs run, fault-free, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RRun.run m ρ)

/-- The precondition makes every coordinate and every table entry a real number. -/
theorem realArgs (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.KRun.RealArgs m c :=
  Cert.Finite.reals_of_pre _ _ _ _ _ (h c)

/-- Both idealized programs end with the result array at `G` of the (agreeing) arguments. -/
theorem algebraic : Cert.algebraic_KernelIdeal_ReferenceIdeal := by
  intro m ρ m' ρ' hpre hagree
  refine ⟨_, Cert.KernelIdeal.KRun.run m ρ (realArgs m hpre), ?_⟩
  refine (θ_run Cert.ReferenceIdeal.defs _ _).mono (fun _ h c => ⟨(h c).1.trans ?_, (h c).2⟩)
    (Cert.ReferenceIdeal.RRun.run m' ρ')
  obtain ⟨e0, e1, e2, e3, e4⟩ := hagree c
  obtain ⟨f0, f1, f2, f3⟩ := realArgs m hpre c
  rw [e0, e1, e2, e3, e4]
  exact Cert.ReferenceIdeal.RVal.ref_eq _ _ _ _ _ f0 (fun p j => match p with
    | ⟨0, _⟩ => f1 j
    | ⟨1, _⟩ => f2 j
    | ⟨2, _⟩ => f3 j)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
